-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x224x224x5 : Shape := ⟨4, ![128, 224, 224, 5]⟩
abbrev S_ : Shape := ⟨0, ![]⟩

class Facts : Prop where
  bcast_S_S128x224x224x5 : S_.BroadcastsInDim S128x224x224x5 (![] : Fin 0 → Fin S128x224x224x5.rank)
  reducesTo_S128x224x224x5_S_d0_1_2_3 : S128x224x224x5.ReducesTo [0, 1, 2, 3] S_
  h_S_ : 0 < S_.numel

variable [Facts]

def fn {F : FTy → Type} [FloatOps F] (main_arg0 : FVec F S128x224x224x5 .f32) : IVec S_ 1 :=
  let main_v0 : FVec F S128x224x224x5 .f32 := Host.absf main_arg0
  let main_cst : FVec F S_ .f32 := constant S_ .f32 0x7F800000#32
  let main_v1 : FVec F S128x224x224x5 .f32 := broadcastInDim S128x224x224x5 ![] bcast_S_S128x224x224x5 main_cst
  let main_v2 : IVec S128x224x224x5 1 := cmpf .olt main_v0 main_v1
  let main_c : IVec S_ 1 := constantI S_ 1 1#1
  let main_v3 : IVec S_ 1 := (fun x v => Host.reduce IntOp.andi x v reducesTo_S128x224x224x5_S_d0_1_2_3 h_S_) main_v2 main_c
  main_v3
-- ==== Kernel.lean ====
abbrev S128x224x224x5 : Shape := ⟨4, ![128, 224, 224, 5]⟩
abbrev S128x224x224x3 : Shape := ⟨4, ![128, 224, 224, 3]⟩
abbrev S128x224x224x1 : Shape := ⟨4, ![128, 224, 224, 1]⟩
abbrev S128x224x224 : Shape := ⟨3, ![128, 224, 224]⟩
abbrev S_ : Shape := ⟨0, ![]⟩
abbrev S128x1x224x224 : Shape := ⟨4, ![128, 1, 224, 224]⟩
abbrev S128x226x226x3 : Shape := ⟨4, ![128, 226, 226, 3]⟩
abbrev S128 : Shape := ⟨1, ![128]⟩
abbrev S128x1x1 : Shape := ⟨3, ![128, 1, 1]⟩
abbrev S128x3x224x224 : Shape := ⟨4, ![128, 3, 224, 224]⟩
abbrev S4x3x224x224 : Shape := ⟨4, ![4, 3, 224, 224]⟩
abbrev S4x1x224x224 : Shape := ⟨4, ![4, 1, 224, 224]⟩

abbrev nBuf : Space → Nat
  | .hbm => 197
  | .vmem => 18
  | .smem => 0
  | _ => 0

abbrev hbmTy0_0 (i : Nat) : BufTy := match i % 128 with
  | 0 => ⟨S128x224x224x5, .f32⟩
  | 1 => ⟨S128x224x224x3, .f32⟩
  | 2 => ⟨S128x224x224x1, .f32⟩
  | 3 => ⟨S128x224x224, .f32⟩
  | 4 => ⟨S128x224x224x1, .f32⟩
  | 5 => ⟨S128x224x224, .f32⟩
  | 6 => ⟨S128x224x224, .f32⟩
  | 7 => ⟨S128x224x224, .f32⟩
  | 8 => ⟨S128x224x224, .f32⟩
  | 9 => ⟨S128x224x224, .f32⟩
  | 10 => ⟨S_, .f32⟩
  | 11 => ⟨S128x224x224, .f32⟩
  | 12 => ⟨S128x224x224, .f32⟩
  | 13 => ⟨S_, .f32⟩
  | 14 => ⟨S128x224x224, .f32⟩
  | 15 => ⟨S128x224x224, .f32⟩
  | 16 => ⟨S128x224x224, .f32⟩
  | 17 => ⟨S128x1x224x224, .f32⟩
  | 18 => ⟨S_, .f32⟩
  | 19 => ⟨S128x224x224, .f32⟩
  | 20 => ⟨S128x224x224, .f32⟩
  | 21 => ⟨S128x224x224, .f32⟩
  | 22 => ⟨S128x1x224x224, .f32⟩
  | 23 => ⟨S_, .f32⟩
  | 24 => ⟨S128x224x224, .f32⟩
  | 25 => ⟨S128x224x224, .f32⟩
  | 26 => ⟨S128x224x224, .f32⟩
  | 27 => ⟨S128x1x224x224, .f32⟩
  | 28 => ⟨S128x224x224, .f32⟩
  | 29 => ⟨S128x1x224x224, .f32⟩
  | 30 => ⟨S_, .i32⟩
  | 31 => ⟨S_, .f32⟩
  | 32 => ⟨S128x226x226x3, .f32⟩
  | 33 => ⟨S_, .f32⟩
  | 34 => ⟨S128x224x224, .f32⟩
  | 35 => ⟨S128x224x224, .f32⟩
  | 36 => ⟨S_, .f32⟩
  | 37 => ⟨S_, .f32⟩
  | 38 => ⟨S_, .f32⟩
  | 39 => ⟨S128x224x224, .f32⟩
  | 40 => ⟨S128x224x224, .f32⟩
  | 41 => ⟨S_, .f32⟩
  | 42 => ⟨S128x224x224, .f32⟩
  | 43 => ⟨S128x224x224, .f32⟩
  | 44 => ⟨S128x224x224, .i32⟩
  | 45 => ⟨S_, .f32⟩
  | 46 => ⟨S128x224x224, .f32⟩
  | 47 => ⟨S128x224x224, .f32⟩
  | 48 => ⟨S_, .f32⟩
  | 49 => ⟨S_, .f32⟩
  | 50 => ⟨S_, .f32⟩
  | 51 => ⟨S128x224x224, .f32⟩
  | 52 => ⟨S128x224x224, .f32⟩
  | 53 => ⟨S_, .f32⟩
  | 54 => ⟨S128x224x224, .f32⟩
  | 55 => ⟨S128x224x224, .f32⟩
  | 56 => ⟨S128x224x224, .i32⟩
  | 57 => ⟨S_, .f32⟩
  | 58 => ⟨S128x224x224, .f32⟩
  | 59 => ⟨S128x224x224, .f32⟩
  | 60 => ⟨S_, .f32⟩
  | 61 => ⟨S_, .f32⟩
  | 62 => ⟨S_, .f32⟩
  | 63 => ⟨S128x224x224, .f32⟩
  | 64 => ⟨S128x224x224, .f32⟩
  | 65 => ⟨S_, .f32⟩
  | 66 => ⟨S128x224x224, .f32⟩
  | 67 => ⟨S128x224x224, .f32⟩
  | 68 => ⟨S128x224x224, .i32⟩
  | 69 => ⟨S_, .f32⟩
  | 70 => ⟨S128x224x224, .f32⟩
  | 71 => ⟨S128x224x224, .f32⟩
  | 72 => ⟨S_, .f32⟩
  | 73 => ⟨S_, .f32⟩
  | 74 => ⟨S_, .f32⟩
  | 75 => ⟨S128x224x224, .f32⟩
  | 76 => ⟨S128x224x224, .f32⟩
  | 77 => ⟨S_, .f32⟩
  | 78 => ⟨S128x224x224, .f32⟩
  | 79 => ⟨S128x224x224, .f32⟩
  | 80 => ⟨S128x224x224, .i32⟩
  | 81 => ⟨S128, .i32⟩
  | 82 => ⟨S128x1x1, .i32⟩
  | 83 => ⟨S_, .i32⟩
  | 84 => ⟨S128x1x1, .i32⟩
  | 85 => ⟨S128x1x1, .i1⟩
  | 86 => ⟨S_, .i32⟩
  | 87 => ⟨S128x1x1, .i32⟩
  | 88 => ⟨S128x1x1, .i32⟩
  | 89 => ⟨S128x1x1, .i32⟩
  | 90 => ⟨S_, .i32⟩
  | 91 => ⟨S128x224x224, .i32⟩
  | 92 => ⟨S128x224x224, .i1⟩
  | 93 => ⟨S_, .i32⟩
  | 94 => ⟨S128x224x224, .i32⟩
  | 95 => ⟨S128x224x224, .i32⟩
  | 96 => ⟨S128x224x224, .i32⟩
  | 97 => ⟨S_, .i32⟩
  | 98 => ⟨S128x224x224, .i32⟩
  | 99 => ⟨S128x224x224, .i1⟩
  | 100 => ⟨S_, .i32⟩
  | 101 => ⟨S128x224x224, .i32⟩
  | 102 => ⟨S128x224x224, .i32⟩
  | 103 => ⟨S128x224x224, .i32⟩
  | 104 => ⟨S128x224x224, .i32⟩
  | 105 => ⟨S128x224x224x1, .i32⟩
  | 106 => ⟨S128x224x224x1, .i32⟩
  | 107 => ⟨S128x224x224x1, .i32⟩
  | 108 => ⟨S128x224x224x3, .i32⟩
  | 109 => ⟨S128x224x224x3, .f32⟩
  | 110 => ⟨S_, .i32⟩
  | 111 => ⟨S128x1x1, .i32⟩
  | 112 => ⟨S128x1x1, .i1⟩
  | 113 => ⟨S_, .i32⟩
  | 114 => ⟨S128x1x1, .i32⟩
  | 115 => ⟨S128x1x1, .i32⟩
  | 116 => ⟨S128x1x1, .i32⟩
  | 117 => ⟨S_, .i32⟩
  | 118 => ⟨S128x224x224, .i32⟩
  | 119 => ⟨S128x224x224, .i1⟩
  | 120 => ⟨S_, .i32⟩
  | 121 => ⟨S128x224x224, .i32⟩
  | 122 => ⟨S128x224x224, .i32⟩
  | 123 => ⟨S128x224x224, .i32⟩
  | 124 => ⟨S_, .i32⟩
  | 125 => ⟨S128x224x224, .i32⟩
  | 126 => ⟨S128x224x224, .i1⟩
  | 127 => ⟨S_, .i32⟩
  | _ => ⟨S128x224x224x5, .f32⟩

abbrev hbmTy0_1 (i : Nat) : BufTy := match i % 128 with
  | 0 => ⟨S128x224x224, .i32⟩
  | 1 => ⟨S128x224x224, .i32⟩
  | 2 => ⟨S128x224x224, .i32⟩
  | 3 => ⟨S128x224x224, .i32⟩
  | 4 => ⟨S128x224x224x1, .i32⟩
  | 5 => ⟨S128x224x224x1, .i32⟩
  | 6 => ⟨S128x224x224x1, .i32⟩
  | 7 => ⟨S128x224x224x3, .i32⟩
  | 8 => ⟨S128x224x224x3, .f32⟩
  | 9 => ⟨S_, .i32⟩
  | 10 => ⟨S128x1x1, .i32⟩
  | 11 => ⟨S128x1x1, .i1⟩
  | 12 => ⟨S_, .i32⟩
  | 13 => ⟨S128x1x1, .i32⟩
  | 14 => ⟨S128x1x1, .i32⟩
  | 15 => ⟨S128x1x1, .i32⟩
  | 16 => ⟨S_, .i32⟩
  | 17 => ⟨S128x224x224, .i32⟩
  | 18 => ⟨S128x224x224, .i1⟩
  | 19 => ⟨S_, .i32⟩
  | 20 => ⟨S128x224x224, .i32⟩
  | 21 => ⟨S128x224x224, .i32⟩
  | 22 => ⟨S128x224x224, .i32⟩
  | 23 => ⟨S_, .i32⟩
  | 24 => ⟨S128x224x224, .i32⟩
  | 25 => ⟨S128x224x224, .i1⟩
  | 26 => ⟨S_, .i32⟩
  | 27 => ⟨S128x224x224, .i32⟩
  | 28 => ⟨S128x224x224, .i32⟩
  | 29 => ⟨S128x224x224, .i32⟩
  | 30 => ⟨S128x224x224, .i32⟩
  | 31 => ⟨S128x224x224x1, .i32⟩
  | 32 => ⟨S128x224x224x1, .i32⟩
  | 33 => ⟨S128x224x224x1, .i32⟩
  | 34 => ⟨S128x224x224x3, .i32⟩
  | 35 => ⟨S128x224x224x3, .f32⟩
  | 36 => ⟨S_, .i32⟩
  | 37 => ⟨S128x1x1, .i32⟩
  | 38 => ⟨S128x1x1, .i1⟩
  | 39 => ⟨S_, .i32⟩
  | 40 => ⟨S128x1x1, .i32⟩
  | 41 => ⟨S128x1x1, .i32⟩
  | 42 => ⟨S128x1x1, .i32⟩
  | 43 => ⟨S_, .i32⟩
  | 44 => ⟨S128x224x224, .i32⟩
  | 45 => ⟨S128x224x224, .i1⟩
  | 46 => ⟨S_, .i32⟩
  | 47 => ⟨S128x224x224, .i32⟩
  | 48 => ⟨S128x224x224, .i32⟩
  | 49 => ⟨S128x224x224, .i32⟩
  | 50 => ⟨S_, .i32⟩
  | 51 => ⟨S128x224x224, .i32⟩
  | 52 => ⟨S128x224x224, .i1⟩
  | 53 => ⟨S_, .i32⟩
  | 54 => ⟨S128x224x224, .i32⟩
  | 55 => ⟨S128x224x224, .i32⟩
  | 56 => ⟨S128x224x224, .i32⟩
  | 57 => ⟨S128x224x224, .i32⟩
  | 58 => ⟨S128x224x224x1, .i32⟩
  | 59 => ⟨S128x224x224x1, .i32⟩
  | 60 => ⟨S128x224x224x1, .i32⟩
  | 61 => ⟨S128x224x224x3, .i32⟩
  | 62 => ⟨S128x224x224x3, .f32⟩
  | 63 => ⟨S128x3x224x224, .f32⟩
  | 64 => ⟨S128x3x224x224, .f32⟩
  | 65 => ⟨S128x3x224x224, .f32⟩
  | 66 => ⟨S128x3x224x224, .f32⟩
  | 67 => ⟨S128x3x224x224, .f32⟩
  | 68 => ⟨S128x224x224x3, .f32⟩
  | _ => ⟨S128x224x224x5, .f32⟩

abbrev hbmTy (i : Nat) : BufTy := match i / 128 with
  | 0 => hbmTy0_0 i
  | 1 => hbmTy0_1 i
  | _ => ⟨S128x224x224x5, .f32⟩

abbrev bufTy : (tb : Table) → Fin (tcTables nBuf tb) → BufTy
  | .hbm, ⟨i, _⟩ => hbmTy i
  | .local _ .vmem, ⟨0, _⟩ => ⟨S4x3x224x224, .f32⟩
  | .local _ .vmem, ⟨1, _⟩ => ⟨S4x3x224x224, .f32⟩
  | .local _ .vmem, ⟨2, _⟩ => ⟨S4x3x224x224, .f32⟩
  | .local _ .vmem, ⟨3, _⟩ => ⟨S4x3x224x224, .f32⟩
  | .local _ .vmem, ⟨4, _⟩ => ⟨S4x3x224x224, .f32⟩
  | .local _ .vmem, ⟨5, _⟩ => ⟨S4x3x224x224, .f32⟩
  | .local _ .vmem, ⟨6, _⟩ => ⟨S4x3x224x224, .f32⟩
  | .local _ .vmem, ⟨7, _⟩ => ⟨S4x3x224x224, .f32⟩
  | .local _ .vmem, ⟨8, _⟩ => ⟨S4x1x224x224, .f32⟩
  | .local _ .vmem, ⟨9, _⟩ => ⟨S4x1x224x224, .f32⟩
  | .local _ .vmem, ⟨10, _⟩ => ⟨S4x1x224x224, .f32⟩
  | .local _ .vmem, ⟨11, _⟩ => ⟨S4x1x224x224, .f32⟩
  | .local _ .vmem, ⟨12, _⟩ => ⟨S4x1x224x224, .f32⟩
  | .local _ .vmem, ⟨13, _⟩ => ⟨S4x1x224x224, .f32⟩
  | .local _ .vmem, ⟨14, _⟩ => ⟨S4x1x224x224, .f32⟩
  | .local _ .vmem, ⟨15, _⟩ => ⟨S4x1x224x224, .f32⟩
  | .local _ .vmem, ⟨16, _⟩ => ⟨S4x3x224x224, .f32⟩
  | .local _ .vmem, ⟨17, _⟩ => ⟨S4x3x224x224, .f32⟩
  | _, _ => ⟨S128x224x224x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_call0_v0 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_cst_11 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_cst_14 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_15 : Ref sig .tc := ⟨.hbm, 83, rfl⟩
abbrev main_v44 : Ref sig .tc := ⟨.hbm, 84, rfl⟩
abbrev main_v45 : Ref sig .tc := ⟨.hbm, 85, rfl⟩
abbrev main_c_16 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_17 : Ref sig .tc := ⟨.hbm, 90, rfl⟩
abbrev main_v49 : Ref sig .tc := ⟨.hbm, 91, rfl⟩
abbrev main_v50 : Ref sig .tc := ⟨.hbm, 92, rfl⟩
abbrev main_c_18 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_19 : Ref sig .tc := ⟨.hbm, 97, rfl⟩
abbrev main_v54 : Ref sig .tc := ⟨.hbm, 98, rfl⟩
abbrev main_v55 : Ref sig .tc := ⟨.hbm, 99, rfl⟩
abbrev main_c_20 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_21 : Ref sig .tc := ⟨.hbm, 110, rfl⟩
abbrev main_v65 : Ref sig .tc := ⟨.hbm, 111, rfl⟩
abbrev main_v66 : Ref sig .tc := ⟨.hbm, 112, rfl⟩
abbrev main_c_22 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_23 : Ref sig .tc := ⟨.hbm, 117, rfl⟩
abbrev main_v70 : Ref sig .tc := ⟨.hbm, 118, rfl⟩
abbrev main_v71 : Ref sig .tc := ⟨.hbm, 119, rfl⟩
abbrev main_c_24 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_25 : Ref sig .tc := ⟨.hbm, 124, rfl⟩
abbrev main_v75 : Ref sig .tc := ⟨.hbm, 125, rfl⟩
abbrev main_v76 : Ref sig .tc := ⟨.hbm, 126, rfl⟩
abbrev main_c_26 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_27 : Ref sig .tc := ⟨.hbm, 137, rfl⟩
abbrev main_v86 : Ref sig .tc := ⟨.hbm, 138, rfl⟩
abbrev main_v87 : Ref sig .tc := ⟨.hbm, 139, rfl⟩
abbrev main_c_28 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_29 : Ref sig .tc := ⟨.hbm, 144, rfl⟩
abbrev main_v91 : Ref sig .tc := ⟨.hbm, 145, rfl⟩
abbrev main_v92 : Ref sig .tc := ⟨.hbm, 146, rfl⟩
abbrev main_c_30 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_31 : Ref sig .tc := ⟨.hbm, 151, rfl⟩
abbrev main_v96 : Ref sig .tc := ⟨.hbm, 152, rfl⟩
abbrev main_v97 : Ref sig .tc := ⟨.hbm, 153, rfl⟩
abbrev main_c_32 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_35 : Ref sig .tc := ⟨.hbm, 171, rfl⟩
abbrev main_v112 : Ref sig .tc := ⟨.hbm, 172, rfl⟩
abbrev main_v113 : Ref sig .tc := ⟨.hbm, 173, rfl⟩
abbrev main_c_36 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_37 : Ref sig .tc := ⟨.hbm, 178, rfl⟩
abbrev main_v117 : Ref sig .tc := ⟨.hbm, 179, rfl⟩
abbrev main_v118 : Ref sig .tc := ⟨.hbm, 180, rfl⟩
abbrev main_c_38 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x224x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x3x224x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S128x224x224x5_S128x224x224x3_0_0_0_0 : S128x224x224x5.Slices ![0, 0, 0, 0] S128x224x224x3
  slices_S128x224x224x5_S128x224x224x1_0_0_0_3 : S128x224x224x5.Slices ![0, 0, 0, 3] S128x224x224x1
  shapeCasts_S128x224x224x1_S128x224x224 : S128x224x224x1.ShapeCasts S128x224x224
  slices_S128x224x224x5_S128x224x224x1_0_0_0_4 : S128x224x224x5.Slices ![0, 0, 0, 4] S128x224x224x1
  bcast_S_S128x224x224 : S_.BroadcastsInDim S128x224x224 (![] : Fin 0 → Fin S128x224x224.rank)
  bcast_S128x224x224_S128x1x224x224_0_2_3 : S128x224x224.BroadcastsInDim S128x1x224x224 (![0, 2, 3] : Fin 3 → Fin S128x1x224x224.rank)
  pads_S128x224x224x3_S128x226x226x3_000_110_110_000 : S128x224x224x3.Pads (![0, 1, 1, 0] : Fin 4 → Nat) ![0, 1, 1, 0] ![0, 0, 0, 0] S128x226x226x3
  h_S_ : 0 < S_.numel
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x224x224_0_1_2 : S128x1x1.BroadcastsInDim S128x224x224 (![0, 1, 2] : Fin 3 → Fin S128x224x224.rank)
  bcast_S128x224x224_S128x224x224x1_0_1_2 : S128x224x224.BroadcastsInDim S128x224x224x1 (![0, 1, 2] : Fin 3 → Fin S128x224x224x1.rank)
  concatenates_S128x224x224x1_S128x224x224x1_S128x224x224x1_S128x224x224x3_d3 : Shape.Concatenates [S128x224x224x1, S128x224x224x1, S128x224x224x1] S128x224x224x3 3
  transposes_S128x224x224x3_S128x3x224x224_0_3_1_2 : S128x224x224x3.Transposes [0, 3, 1, 2] S128x3x224x224
  inb_S4x1x224x224_S4x1x224x224_0_0_0_0 : ∀ a, (![0, 0, 0, 0] : Fin 4 → Nat) a + S4x1x224x224.size a ≤ S4x1x224x224.size a
  h_S4x1x224x224 : 0 < S4x1x224x224.numel
  shapeCasts_S4x1x224x224_S4x1x224x224 : S4x1x224x224.ShapeCasts S4x1x224x224
  inb_S4x3x224x224_S4x3x224x224_0_0_0_0 : ∀ a, (![0, 0, 0, 0] : Fin 4 → Nat) a + S4x3x224x224.size a ≤ S4x3x224x224.size a
  h_S4x3x224x224 : 0 < S4x3x224x224.numel
  shapeCasts_S4x3x224x224_S4x3x224x224 : S4x3x224x224.ShapeCasts S4x3x224x224
  broadcasts_S4x1x224x224_S4x3x224x224 : S4x1x224x224.Broadcasts S4x3x224x224
  transposes_S128x3x224x224_S128x224x224x3_0_2_3_1 : S128x3x224x224.Transposes [0, 2, 3, 1] S128x224x224x3
  gather_S128x226x226x3_S128x224x224x3_S128x224x224x3_3_012_n_n_012_3_1113_wf : GatherDims.WF S128x226x226x3 S128x224x224x3 S128x224x224x3 [3] [0, 1, 2] [] [0, 1, 2] [] 3 ![1, 1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x224x224.size a ≤ S128x3x224x224.size a
  hwx0_0 : ∀ i : grid0.Coords, EltTy.bits .f32 = 32 ∨ (Rect.block (s := S128x3x224x224) S4x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x224x224.size a ≤ S128x3x224x224.size a
  hwx0_1 : ∀ i : grid0.Coords, EltTy.bits .f32 = 32 ∨ (Rect.block (s := S128x3x224x224) S4x3x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x224x224.size a ≤ S128x3x224x224.size a
  hwx0_2 : ∀ i : grid0.Coords, EltTy.bits .f32 = 32 ∨ (Rect.block (s := S128x3x224x224) S4x3x224x224.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x3x224x224.size a ≤ S128x3x224x224.size a
  hwx0_3 : ∀ i : grid0.Coords, EltTy.bits .f32 = 32 ∨ (Rect.block (s := S128x3x224x224) S4x3x224x224.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x224x224.size a ≤ S128x1x224x224.size a
  hwx0_4 : ∀ i : grid0.Coords, EltTy.bits .f32 = 32 ∨ (Rect.block (s := S128x1x224x224) S4x1x224x224.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x224x224.size a ≤ S128x1x224x224.size a
  hwx0_5 : ∀ i : grid0.Coords, EltTy.bits .f32 = 32 ∨ (Rect.block (s := S128x1x224x224) S4x1x224x224.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x224x224.size a ≤ S128x1x224x224.size a
  hwx0_6 : ∀ i : grid0.Coords, EltTy.bits .f32 = 32 ∨ (Rect.block (s := S128x1x224x224) S4x1x224x224.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1x224x224.size a ≤ S128x1x224x224.size a
  hwx0_7 : ∀ i : grid0.Coords, EltTy.bits .f32 = 32 ∨ (Rect.block (s := S128x1x224x224) S4x1x224x224.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x3x224x224.size a ≤ S128x3x224x224.size a
  hwx0_8 : ∀ i : grid0.Coords, EltTy.bits .f32 = 32 ∨ (Rect.block (s := S128x3x224x224) S4x3x224x224.size (cc0_transform_8 i) (hinb0_8 i)).WholeWords (EltTy.packing .f32)

variable [Facts₀]

def gather_S128x226x226x3_S128x224x224x3_S128x224x224x3_3_012_n_n_012_3_1113 : GatherDims S128x226x226x3 S128x224x224x3 S128x224x224x3 where
  offsetDims := [3]
  collapsedSliceDims := [0, 1, 2]
  operandBatchingDims := []
  startIndicesBatchingDims := []
  startIndexMap := [0, 1, 2]
  indexVectorDim := 3
  sliceSizes := ![1, 1, 1, 3]
  wf := gather_S128x226x226x3_S128x224x224x3_S128x224x224x3_3_012_n_n_012_3_1113_wf

abbrev win0_0 : Pipeline.Window sig grid0 :=
  Pipeline.Window.ofSpec (Memref.whole main_v128) S4x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v129) S4x3x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v130) S4x3x224x224.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v131) S4x3x224x224.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4x1x224x224.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4x1x224x224.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4x1x224x224.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24) S4x1x224x224.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v132) S4x3x224x224.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x224x224x5 : Shape := ⟨4, ![128, 224, 224, 5]⟩
abbrev S128x224x224x3 : Shape := ⟨4, ![128, 224, 224, 3]⟩
abbrev S128x224x224x1 : Shape := ⟨4, ![128, 224, 224, 1]⟩
abbrev S128x224x224 : Shape := ⟨3, ![128, 224, 224]⟩
abbrev S_ : Shape := ⟨0, ![]⟩
abbrev S128x226x226x3 : Shape := ⟨4, ![128, 226, 226, 3]⟩
abbrev S128 : Shape := ⟨1, ![128]⟩
abbrev S128x1x1 : Shape := ⟨3, ![128, 1, 1]⟩

abbrev nBuf : Space → Nat
  | .hbm => 202
  | .vmem => 0
  | .smem => 0
  | _ => 0

abbrev hbmTy0_0 (i : Nat) : BufTy := match i % 128 with
  | 0 => ⟨S128x224x224x5, .f32⟩
  | 1 => ⟨S128x224x224x3, .f32⟩
  | 2 => ⟨S128x224x224x1, .f32⟩
  | 3 => ⟨S128x224x224, .f32⟩
  | 4 => ⟨S128x224x224x1, .f32⟩
  | 5 => ⟨S128x224x224, .f32⟩
  | 6 => ⟨S128x224x224, .f32⟩
  | 7 => ⟨S128x224x224, .f32⟩
  | 8 => ⟨S128x224x224, .f32⟩
  | 9 => ⟨S128x224x224, .f32⟩
  | 10 => ⟨S_, .f32⟩
  | 11 => ⟨S128x224x224, .f32⟩
  | 12 => ⟨S128x224x224, .f32⟩
  | 13 => ⟨S_, .f32⟩
  | 14 => ⟨S128x224x224, .f32⟩
  | 15 => ⟨S128x224x224, .f32⟩
  | 16 => ⟨S128x224x224, .f32⟩
  | 17 => ⟨S128x224x224x1, .f32⟩
  | 18 => ⟨S_, .f32⟩
  | 19 => ⟨S128x224x224, .f32⟩
  | 20 => ⟨S128x224x224, .f32⟩
  | 21 => ⟨S128x224x224, .f32⟩
  | 22 => ⟨S128x224x224x1, .f32⟩
  | 23 => ⟨S_, .f32⟩
  | 24 => ⟨S128x224x224, .f32⟩
  | 25 => ⟨S128x224x224, .f32⟩
  | 26 => ⟨S128x224x224, .f32⟩
  | 27 => ⟨S128x224x224x1, .f32⟩
  | 28 => ⟨S128x224x224, .f32⟩
  | 29 => ⟨S128x224x224x1, .f32⟩
  | 30 => ⟨S_, .i32⟩
  | 31 => ⟨S_, .f32⟩
  | 32 => ⟨S128x226x226x3, .f32⟩
  | 33 => ⟨S_, .f32⟩
  | 34 => ⟨S128x224x224, .f32⟩
  | 35 => ⟨S128x224x224, .f32⟩
  | 36 => ⟨S_, .f32⟩
  | 37 => ⟨S_, .f32⟩
  | 38 => ⟨S_, .f32⟩
  | 39 => ⟨S128x224x224, .f32⟩
  | 40 => ⟨S128x224x224, .f32⟩
  | 41 => ⟨S_, .f32⟩
  | 42 => ⟨S128x224x224, .f32⟩
  | 43 => ⟨S128x224x224, .f32⟩
  | 44 => ⟨S128x224x224, .i32⟩
  | 45 => ⟨S_, .f32⟩
  | 46 => ⟨S128x224x224, .f32⟩
  | 47 => ⟨S128x224x224, .f32⟩
  | 48 => ⟨S_, .f32⟩
  | 49 => ⟨S_, .f32⟩
  | 50 => ⟨S_, .f32⟩
  | 51 => ⟨S128x224x224, .f32⟩
  | 52 => ⟨S128x224x224, .f32⟩
  | 53 => ⟨S_, .f32⟩
  | 54 => ⟨S128x224x224, .f32⟩
  | 55 => ⟨S128x224x224, .f32⟩
  | 56 => ⟨S128x224x224, .i32⟩
  | 57 => ⟨S_, .f32⟩
  | 58 => ⟨S128x224x224, .f32⟩
  | 59 => ⟨S128x224x224, .f32⟩
  | 60 => ⟨S_, .f32⟩
  | 61 => ⟨S_, .f32⟩
  | 62 => ⟨S_, .f32⟩
  | 63 => ⟨S128x224x224, .f32⟩
  | 64 => ⟨S128x224x224, .f32⟩
  | 65 => ⟨S_, .f32⟩
  | 66 => ⟨S128x224x224, .f32⟩
  | 67 => ⟨S128x224x224, .f32⟩
  | 68 => ⟨S128x224x224, .i32⟩
  | 69 => ⟨S_, .f32⟩
  | 70 => ⟨S128x224x224, .f32⟩
  | 71 => ⟨S128x224x224, .f32⟩
  | 72 => ⟨S_, .f32⟩
  | 73 => ⟨S_, .f32⟩
  | 74 => ⟨S_, .f32⟩
  | 75 => ⟨S128x224x224, .f32⟩
  | 76 => ⟨S128x224x224, .f32⟩
  | 77 => ⟨S_, .f32⟩
  | 78 => ⟨S128x224x224, .f32⟩
  | 79 => ⟨S128x224x224, .f32⟩
  | 80 => ⟨S128x224x224, .i32⟩
  | 81 => ⟨S128, .i32⟩
  | 82 => ⟨S128x1x1, .i32⟩
  | 83 => ⟨S_, .i32⟩
  | 84 => ⟨S128x1x1, .i32⟩
  | 85 => ⟨S128x1x1, .i1⟩
  | 86 => ⟨S_, .i32⟩
  | 87 => ⟨S128x1x1, .i32⟩
  | 88 => ⟨S128x1x1, .i32⟩
  | 89 => ⟨S128x1x1, .i32⟩
  | 90 => ⟨S_, .i32⟩
  | 91 => ⟨S128x224x224, .i32⟩
  | 92 => ⟨S128x224x224, .i1⟩
  | 93 => ⟨S_, .i32⟩
  | 94 => ⟨S128x224x224, .i32⟩
  | 95 => ⟨S128x224x224, .i32⟩
  | 96 => ⟨S128x224x224, .i32⟩
  | 97 => ⟨S_, .i32⟩
  | 98 => ⟨S128x224x224, .i32⟩
  | 99 => ⟨S128x224x224, .i1⟩
  | 100 => ⟨S_, .i32⟩
  | 101 => ⟨S128x224x224, .i32⟩
  | 102 => ⟨S128x224x224, .i32⟩
  | 103 => ⟨S128x224x224, .i32⟩
  | 104 => ⟨S128x224x224, .i32⟩
  | 105 => ⟨S128x224x224x1, .i32⟩
  | 106 => ⟨S128x224x224x1, .i32⟩
  | 107 => ⟨S128x224x224x1, .i32⟩
  | 108 => ⟨S128x224x224x3, .i32⟩
  | 109 => ⟨S128x224x224x3, .f32⟩
  | 110 => ⟨S_, .i32⟩
  | 111 => ⟨S128x1x1, .i32⟩
  | 112 => ⟨S128x1x1, .i1⟩
  | 113 => ⟨S_, .i32⟩
  | 114 => ⟨S128x1x1, .i32⟩
  | 115 => ⟨S128x1x1, .i32⟩
  | 116 => ⟨S128x1x1, .i32⟩
  | 117 => ⟨S_, .i32⟩
  | 118 => ⟨S128x224x224, .i32⟩
  | 119 => ⟨S128x224x224, .i1⟩
  | 120 => ⟨S_, .i32⟩
  | 121 => ⟨S128x224x224, .i32⟩
  | 122 => ⟨S128x224x224, .i32⟩
  | 123 => ⟨S128x224x224, .i32⟩
  | 124 => ⟨S_, .i32⟩
  | 125 => ⟨S128x224x224, .i32⟩
  | 126 => ⟨S128x224x224, .i1⟩
  | 127 => ⟨S_, .i32⟩
  | _ => ⟨S128x224x224x5, .f32⟩

abbrev hbmTy0_1 (i : Nat) : BufTy := match i % 128 with
  | 0 => ⟨S128x224x224, .i32⟩
  | 1 => ⟨S128x224x224, .i32⟩
  | 2 => ⟨S128x224x224, .i32⟩
  | 3 => ⟨S128x224x224, .i32⟩
  | 4 => ⟨S128x224x224x1, .i32⟩
  | 5 => ⟨S128x224x224x1, .i32⟩
  | 6 => ⟨S128x224x224x1, .i32⟩
  | 7 => ⟨S128x224x224x3, .i32⟩
  | 8 => ⟨S128x224x224x3, .f32⟩
  | 9 => ⟨S_, .i32⟩
  | 10 => ⟨S128x1x1, .i32⟩
  | 11 => ⟨S128x1x1, .i1⟩
  | 12 => ⟨S_, .i32⟩
  | 13 => ⟨S128x1x1, .i32⟩
  | 14 => ⟨S128x1x1, .i32⟩
  | 15 => ⟨S128x1x1, .i32⟩
  | 16 => ⟨S_, .i32⟩
  | 17 => ⟨S128x224x224, .i32⟩
  | 18 => ⟨S128x224x224, .i1⟩
  | 19 => ⟨S_, .i32⟩
  | 20 => ⟨S128x224x224, .i32⟩
  | 21 => ⟨S128x224x224, .i32⟩
  | 22 => ⟨S128x224x224, .i32⟩
  | 23 => ⟨S_, .i32⟩
  | 24 => ⟨S128x224x224, .i32⟩
  | 25 => ⟨S128x224x224, .i1⟩
  | 26 => ⟨S_, .i32⟩
  | 27 => ⟨S128x224x224, .i32⟩
  | 28 => ⟨S128x224x224, .i32⟩
  | 29 => ⟨S128x224x224, .i32⟩
  | 30 => ⟨S128x224x224, .i32⟩
  | 31 => ⟨S128x224x224x1, .i32⟩
  | 32 => ⟨S128x224x224x1, .i32⟩
  | 33 => ⟨S128x224x224x1, .i32⟩
  | 34 => ⟨S128x224x224x3, .i32⟩
  | 35 => ⟨S128x224x224x3, .f32⟩
  | 36 => ⟨S_, .i32⟩
  | 37 => ⟨S128x1x1, .i32⟩
  | 38 => ⟨S128x1x1, .i1⟩
  | 39 => ⟨S_, .i32⟩
  | 40 => ⟨S128x1x1, .i32⟩
  | 41 => ⟨S128x1x1, .i32⟩
  | 42 => ⟨S128x1x1, .i32⟩
  | 43 => ⟨S_, .i32⟩
  | 44 => ⟨S128x224x224, .i32⟩
  | 45 => ⟨S128x224x224, .i1⟩
  | 46 => ⟨S_, .i32⟩
  | 47 => ⟨S128x224x224, .i32⟩
  | 48 => ⟨S128x224x224, .i32⟩
  | 49 => ⟨S128x224x224, .i32⟩
  | 50 => ⟨S_, .i32⟩
  | 51 => ⟨S128x224x224, .i32⟩
  | 52 => ⟨S128x224x224, .i1⟩
  | 53 => ⟨S_, .i32⟩
  | 54 => ⟨S128x224x224, .i32⟩
  | 55 => ⟨S128x224x224, .i32⟩
  | 56 => ⟨S128x224x224, .i32⟩
  | 57 => ⟨S128x224x224, .i32⟩
  | 58 => ⟨S128x224x224x1, .i32⟩
  | 59 => ⟨S128x224x224x1, .i32⟩
  | 60 => ⟨S128x224x224x1, .i32⟩
  | 61 => ⟨S128x224x224x3, .i32⟩
  | 62 => ⟨S128x224x224x3, .f32⟩
  | 63 => ⟨S128x224x224x3, .f32⟩
  | 64 => ⟨S128x224x224x3, .f32⟩
  | 65 => ⟨S128x224x224x3, .f32⟩
  | 66 => ⟨S128x224x224x3, .f32⟩
  | 67 => ⟨S128x224x224x3, .f32⟩
  | 68 => ⟨S128x224x224x3, .f32⟩
  | 69 => ⟨S128x224x224x3, .f32⟩
  | 70 => ⟨S128x224x224x3, .f32⟩
  | 71 => ⟨S128x224x224x3, .f32⟩
  | 72 => ⟨S128x224x224x3, .f32⟩
  | 73 => ⟨S128x224x224x3, .f32⟩
  | _ => ⟨S128x224x224x5, .f32⟩

abbrev hbmTy (i : Nat) : BufTy := match i / 128 with
  | 0 => hbmTy0_0 i
  | 1 => hbmTy0_1 i
  | _ => ⟨S128x224x224x5, .f32⟩

abbrev bufTy : (tb : Table) → Fin (tcTables nBuf tb) → BufTy
  | .hbm, ⟨i, _⟩ => hbmTy i
  | _, _ => ⟨S128x224x224x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_call0_v0 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_cst_11 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_cst_14 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_15 : Ref sig .tc := ⟨.hbm, 83, rfl⟩
abbrev main_v44 : Ref sig .tc := ⟨.hbm, 84, rfl⟩
abbrev main_v45 : Ref sig .tc := ⟨.hbm, 85, rfl⟩
abbrev main_c_16 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_17 : Ref sig .tc := ⟨.hbm, 90, rfl⟩
abbrev main_v49 : Ref sig .tc := ⟨.hbm, 91, rfl⟩
abbrev main_v50 : Ref sig .tc := ⟨.hbm, 92, rfl⟩
abbrev main_c_18 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_19 : Ref sig .tc := ⟨.hbm, 97, rfl⟩
abbrev main_v54 : Ref sig .tc := ⟨.hbm, 98, rfl⟩
abbrev main_v55 : Ref sig .tc := ⟨.hbm, 99, rfl⟩
abbrev main_c_20 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_21 : Ref sig .tc := ⟨.hbm, 110, rfl⟩
abbrev main_v65 : Ref sig .tc := ⟨.hbm, 111, rfl⟩
abbrev main_v66 : Ref sig .tc := ⟨.hbm, 112, rfl⟩
abbrev main_c_22 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_23 : Ref sig .tc := ⟨.hbm, 117, rfl⟩
abbrev main_v70 : Ref sig .tc := ⟨.hbm, 118, rfl⟩
abbrev main_v71 : Ref sig .tc := ⟨.hbm, 119, rfl⟩
abbrev main_c_24 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_25 : Ref sig .tc := ⟨.hbm, 124, rfl⟩
abbrev main_v75 : Ref sig .tc := ⟨.hbm, 125, rfl⟩
abbrev main_v76 : Ref sig .tc := ⟨.hbm, 126, rfl⟩
abbrev main_c_26 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_27 : Ref sig .tc := ⟨.hbm, 137, rfl⟩
abbrev main_v86 : Ref sig .tc := ⟨.hbm, 138, rfl⟩
abbrev main_v87 : Ref sig .tc := ⟨.hbm, 139, rfl⟩
abbrev main_c_28 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_29 : Ref sig .tc := ⟨.hbm, 144, rfl⟩
abbrev main_v91 : Ref sig .tc := ⟨.hbm, 145, rfl⟩
abbrev main_v92 : Ref sig .tc := ⟨.hbm, 146, rfl⟩
abbrev main_c_30 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_31 : Ref sig .tc := ⟨.hbm, 151, rfl⟩
abbrev main_v96 : Ref sig .tc := ⟨.hbm, 152, rfl⟩
abbrev main_v97 : Ref sig .tc := ⟨.hbm, 153, rfl⟩
abbrev main_c_32 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_35 : Ref sig .tc := ⟨.hbm, 171, rfl⟩
abbrev main_v112 : Ref sig .tc := ⟨.hbm, 172, rfl⟩
abbrev main_v113 : Ref sig .tc := ⟨.hbm, 173, rfl⟩
abbrev main_c_36 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_37 : Ref sig .tc := ⟨.hbm, 178, rfl⟩
abbrev main_v117 : Ref sig .tc := ⟨.hbm, 179, rfl⟩
abbrev main_v118 : Ref sig .tc := ⟨.hbm, 180, rfl⟩
abbrev main_c_38 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩

abbrev nD : Nat := 1
abbrev τ : Topo := Topo.v7x

variable {F : FTy → Type} [FloatOps F]

class Facts₀ : Prop where
  slices_S128x224x224x5_S128x224x224x3_0_0_0_0 : S128x224x224x5.Slices ![0, 0, 0, 0] S128x224x224x3
  slices_S128x224x224x5_S128x224x224x1_0_0_0_3 : S128x224x224x5.Slices ![0, 0, 0, 3] S128x224x224x1
  shapeCasts_S128x224x224x1_S128x224x224 : S128x224x224x1.ShapeCasts S128x224x224
  slices_S128x224x224x5_S128x224x224x1_0_0_0_4 : S128x224x224x5.Slices ![0, 0, 0, 4] S128x224x224x1
  bcast_S_S128x224x224 : S_.BroadcastsInDim S128x224x224 (![] : Fin 0 → Fin S128x224x224.rank)
  bcast_S128x224x224_S128x224x224x1_0_1_2 : S128x224x224.BroadcastsInDim S128x224x224x1 (![0, 1, 2] : Fin 3 → Fin S128x224x224x1.rank)
  pads_S128x224x224x3_S128x226x226x3_000_110_110_000 : S128x224x224x3.Pads (![0, 1, 1, 0] : Fin 4 → Nat) ![0, 1, 1, 0] ![0, 0, 0, 0] S128x226x226x3
  h_S_ : 0 < S_.numel
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x224x224_0_1_2 : S128x1x1.BroadcastsInDim S128x224x224 (![0, 1, 2] : Fin 3 → Fin S128x224x224.rank)
  concatenates_S128x224x224x1_S128x224x224x1_S128x224x224x1_S128x224x224x3_d3 : Shape.Concatenates [S128x224x224x1, S128x224x224x1, S128x224x224x1] S128x224x224x3 3
  bcast_S128x224x224x1_S128x224x224x3_0_1_2_3 : S128x224x224x1.BroadcastsInDim S128x224x224x3 (![0, 1, 2, 3] : Fin 4 → Fin S128x224x224x3.rank)
  gather_S128x226x226x3_S128x224x224x3_S128x224x224x3_3_012_n_n_012_3_1113_wf : GatherDims.WF S128x226x226x3 S128x224x224x3 S128x224x224x3 [3] [0, 1, 2] [] [0, 1, 2] [] 3 ![1, 1, 1, 3]

variable [Facts₀]

def gather_S128x226x226x3_S128x224x224x3_S128x224x224x3_3_012_n_n_012_3_1113 : GatherDims S128x226x226x3 S128x224x224x3 S128x224x224x3 where
  offsetDims := [3]
  collapsedSliceDims := [0, 1, 2]
  operandBatchingDims := []
  startIndicesBatchingDims := []
  startIndexMap := [0, 1, 2]
  indexVectorDim := 3
  sliceSizes := ![1, 1, 1, 3]
  wf := gather_S128x226x226x3_S128x224x224x3_S128x224x224x3_3_012_n_n_012_3_1113_wf

class Facts : Prop extends Facts₀ where

variable [Facts]
-- ==== Proof.EntryBits.lean ====
/-
  The host program around the one kernel launch.

  The program computes, on the host, the four bilinear weights and the four gathered corner images from its one
  argument array (eleven stretches of host operations, the called clamp and pad functions among them), launches
  the combining kernel on them, and transposes the kernel's result back to channel-last (one host operation).
  This module names the buffers' contents when the launch is entered (`atEntry`, the fold of the host operations
  before it over the launch memory), shows that the program is those stretches, then the launch, then the
  transpose, that no host operation on either side writes the argument array or any array the kernel's windows
  stage, and names each window's block at a grid point.
-/
import proofs.«123371_j48232482734312_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, stretch by stretch. -/
abbrev before : List (List (HloOp τ sig (Elt F))) := [hostOps0, hostOps0_1, hostOps0_2, hostOps0_3, hostOps0_4, hostOps0_5, hostOps0_6, hostOps0_7, hostOps0_8, hostOps0_9, hostOps0_10]

/-- Core `c`'s buffer contents when the launch is entered: the host operations before it, folded over the launch
    memory. -/
abbrev atEntry₀ (c : Dev nD) : Valuation τ sig (Elt F) := StableHlo.after (List.flatten (before (F := F))) (fun b => m (c, b))
/-- The same read at a TensorCore reference. -/
abbrev atEntry (c : Dev nD) (b : Ref sig .tc) : Buf (Elt F) ((c : Thread nD τ).loc b) := atEntry₀ m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host stretches, the launch, and the closing transpose: it reduces to the launch continued by
    the transpose. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The closing transpose touches only buffers that are arrays of the launch or bypass it, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the launch (it writes the program's result, which no window stages). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

set_option maxHeartbeats 4000000 in
/-- No host operation before the launch writes the argument array: the launch finds it as the program was given it. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the closing transpose: whatever the launch leaves in its arrays, the argument array ends as given. -/
theorem atExit_arg0 (dats : (p : Fin _) → (c : Dev nD) → Dat τ (Elt F) Unit ℕ (UR sig nD τ) ℕ (cfgs p) c) (c : Dev nD) :
    Pipeline.afterTail₀ cfgs dats 0 (atEntry₀ m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (atEntry₀ m c) _ main_arg0 (by exact (by decide : ∀ w, Pipeline.arrRef spec0 w ≠ main_arg0))]
  exact atEntry_arg0 m c

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

end Cert.Kernel.Combine

end
-- ==== Proof.BodyBits.lean ====
/-
  The body of the combining kernel, run once on whole staging buffers.

  At a grid point the body is handed four image blocks of shape [4, 3, 224, 224] (the four gathered corners of
  the bilinear stencil, channel-second), four weight blocks of shape [4, 1, 224, 224] and the output's staging
  buffer. It loads every block whole, multiplies each image block by its weight block spread over the three
  channels, adds the four products from the left, and stores the sum over the whole output buffer. (It also loads
  the output buffer once before the store; the value is not used.) This module states what the output buffer
  holds afterwards, `combined`, as the one store over the skeleton's payload, and proves the body's triple.
-/
import proofs.«123371_j48232482734312_2_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole image-sized buffer as one rectangle, and the whole weight-sized buffer as one. -/
abbrev imgRect : Rect S4x3x224x224 := Rect.unit (s := S4x3x224x224) ![0, 0, 0, 0] S4x3x224x224.size inb_S4x3x224x224_S4x3x224x224_0_0_0_0
abbrev wRect : Rect S4x1x224x224 := Rect.unit (s := S4x1x224x224) ![0, 0, 0, 0] S4x1x224x224.size inb_S4x1x224x224_S4x1x224x224_0_0_0_0

/-- What the output's staging buffer holds after the body, from the eight input blocks: the one store, over the
    whole buffer, of the weighted sum of the four corner blocks. -/
def combined (x0 x1 x2 x3 : Vec F S4x3x224x224 .f32) (x4 x5 x6 x7 : Vec F S4x1x224x224 .f32) : Vec F S4x3x224x224 .f32 :=
  View.canon [⟨imgRect, k0_pay1 (View.ld x4 wRect) (View.ld x0 imgRect) (View.ld x5 wRect) (View.ld x1 imgRect)
    (View.ld x6 wRect) (View.ld x2 imgRect) (View.ld x7 wRect) (View.ld x3 imgRect)⟩]

/-- The one store covers the buffer. -/
theorem combined_cover (p0 : Vec F S4x3x224x224 .f32) (y : S4x3x224x224.Idx) :
    ∃ pc ∈ ([⟨imgRect, p0⟩] : List (View.Piece (Elt F) S4x3x224x224 .f32)), y ∈ pc.1.set :=
  View.cover_of_tiled [⟨imgRect, p0⟩] S4x3x224x224.size (by rfl) y

set_option maxHeartbeats 1000000 in
/-- The body on whole staging buffers, the inputs' at contents `x0 … x7` and the output's at anything, runs to the
    continuation with the inputs' as they were and the output's at `combined` of them. -/
theorem sound_kernel (c : Dev nD) (E : Set ℕ) (i : grid0.Coords)
    (a1 : Memref sig .tc .vmem S4x3x224x224 .f32) (h1 : a1.IsWhole) (a2 : Memref sig .tc .vmem S4x3x224x224 .f32) (h2 : a2.IsWhole)
    (a3 : Memref sig .tc .vmem S4x3x224x224 .f32) (h3 : a3.IsWhole) (a4 : Memref sig .tc .vmem S4x3x224x224 .f32) (h4 : a4.IsWhole)
    (a5 : Memref sig .tc .vmem S4x1x224x224 .f32) (h5 : a5.IsWhole) (a6 : Memref sig .tc .vmem S4x1x224x224 .f32) (h6 : a6.IsWhole)
    (a7 : Memref sig .tc .vmem S4x1x224x224 .f32) (h7 : a7.IsWhole) (a8 : Memref sig .tc .vmem S4x1x224x224 .f32) (h8 : a8.IsWhole)
    (a9 : Memref sig .tc .vmem S4x3x224x224 .f32) (h9 : a9.IsWhole)
    (x0 x1 x2 x3 : Vec F S4x3x224x224 .f32) (x4 x5 x6 x7 : Vec F S4x1x224x224 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (combined x0 x1 x2 x3 x4 x5 x6 x7)) -∗ K ⟨⟩))
      ⊢ wp frame (wpE (defs₀ (F := F)) Variants.none c none) E (cc0__combine_kernel i a1 h1 a2 h2 a3 h3 a4 h4 a5 h5 a6 h6 a7 h7 a8 h8 a9 h9) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (combined_cover _)

end Cert.Kernel.Combine

end
-- ==== Proof.FrameBits.lean ====
/-
  The launch of the combining kernel over its 32 grid points, and the program's run.

  Grid point `t` works on images `4 t … 4 t + 3` of the batch: each of the eight input windows stages its block of
  four images, the body leaves the weighted sum of the four corner blocks in the output's staging buffer, and the
  block is written back. This module gives the launch's proof data (every input buffer at its block, the output
  buffer at `combined` of the blocks), discharges the body's obligation at a generic point by the body's triple,
  and concludes the program's run: it terminates, nothing faults, every array of the launch ends at what the
  proof data say, and every other buffer at what the closing transpose leaves — in particular the argument
  array ends unchanged.
-/
import proofs.«123371_j48232482734312_2_alg».proof.Proof.EntryBits
import proofs.«123371_j48232482734312_2_alg».proof.Proof.BodyBits
import proofs.«123371_j48232482734312_2_alg».proof.Proof.Gen.Kernel.Points

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! An input window's current staging buffer holds its block at every point, for any proof data whose array is the
    launch-entry contents and whose body leaves the block in place: each input window is fetched whole at every
    point, never idle, never clipped. One statement per input window. -/
theorem found0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-- The proof data of the launch on core `c`: the arrays as the launch finds them; after the body at point `t` each
    input's buffer at its block and the output's at the weighted sum of the corner blocks; the invariant is the
    untouched rest; nothing owed; full shares. -/
def pieces (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => combined (blockAt m c 0 t) (blockAt m c 1 t) (blockAt m c 2 t) (blockAt m c 3 t)
        (blockAt m c 4 t) (blockAt m c 5 t) (blockAt m c 6 t) (blockAt m c 7 t)
  Φ _ := Pipeline.ΦA spec0 c
  q _ := fullShare
  owed _ := 0

/-- The proof data's arrays are the launch-entry contents. -/
theorem pieces_A (c : Dev nD) (w : Fin cfg0.W) : (pieces m 0 c).A w = atEntry m c (Pipeline.arrRef spec0 w) := by
  dsimp only [pieces]

/-! What the body leaves, window by window. -/
theorem left0 (c : Dev nD) (t : Fin cfg0.N) : (pieces m 0 c).after 0 t = blockAt m c 0 t := by dsimp only [pieces]
theorem left1 (c : Dev nD) (t : Fin cfg0.N) : (pieces m 0 c).after 1 t = blockAt m c 1 t := by dsimp only [pieces]
theorem left2 (c : Dev nD) (t : Fin cfg0.N) : (pieces m 0 c).after 2 t = blockAt m c 2 t := by dsimp only [pieces]
theorem left3 (c : Dev nD) (t : Fin cfg0.N) : (pieces m 0 c).after 3 t = blockAt m c 3 t := by dsimp only [pieces]
theorem left4 (c : Dev nD) (t : Fin cfg0.N) : (pieces m 0 c).after 4 t = blockAt m c 4 t := by dsimp only [pieces]
theorem left5 (c : Dev nD) (t : Fin cfg0.N) : (pieces m 0 c).after 5 t = blockAt m c 5 t := by dsimp only [pieces]
theorem left6 (c : Dev nD) (t : Fin cfg0.N) : (pieces m 0 c).after 6 t = blockAt m c 6 t := by dsimp only [pieces]
theorem left7 (c : Dev nD) (t : Fin cfg0.N) : (pieces m 0 c).after 7 t = blockAt m c 7 t := by dsimp only [pieces]
theorem left8 (c : Dev nD) (t : Fin cfg0.N) : (pieces m 0 c).after 8 t
    = combined (blockAt m c 0 t) (blockAt m c 1 t) (blockAt m c 2 t) (blockAt m c 3 t)
        (blockAt m c 4 t) (blockAt m c 5 t) (blockAt m c 6 t) (blockAt m c 7 t) := by dsimp only [pieces]

/-! Each input's current staging buffer holds its block at every point. -/
theorem found0 (c : Dev nD) (t : Fin cfg0.N) (d) : (pieces m 0 c).before 0 t d = blockAt m c 0 t :=
  found0_of m (pieces m 0 c) (pieces_A m c 0) (left0 m c) t d
theorem found1 (c : Dev nD) (t : Fin cfg0.N) (d) : (pieces m 0 c).before 1 t d = blockAt m c 1 t :=
  found1_of m (pieces m 0 c) (pieces_A m c 1) (left1 m c) t d
theorem found2 (c : Dev nD) (t : Fin cfg0.N) (d) : (pieces m 0 c).before 2 t d = blockAt m c 2 t :=
  found2_of m (pieces m 0 c) (pieces_A m c 2) (left2 m c) t d
theorem found3 (c : Dev nD) (t : Fin cfg0.N) (d) : (pieces m 0 c).before 3 t d = blockAt m c 3 t :=
  found3_of m (pieces m 0 c) (pieces_A m c 3) (left3 m c) t d
theorem found4 (c : Dev nD) (t : Fin cfg0.N) (d) : (pieces m 0 c).before 4 t d = blockAt m c 4 t :=
  found4_of m (pieces m 0 c) (pieces_A m c 4) (left4 m c) t d
theorem found5 (c : Dev nD) (t : Fin cfg0.N) (d) : (pieces m 0 c).before 5 t d = blockAt m c 5 t :=
  found5_of m (pieces m 0 c) (pieces_A m c 5) (left5 m c) t d
theorem found6 (c : Dev nD) (t : Fin cfg0.N) (d) : (pieces m 0 c).before 6 t d = blockAt m c 6 t :=
  found6_of m (pieces m 0 c) (pieces_A m c 6) (left6 m c) t d
theorem found7 (c : Dev nD) (t : Fin cfg0.N) (d) : (pieces m 0 c).before 7 t d = blockAt m c 7 t :=
  found7_of m (pieces m 0 c) (pieces_A m c 7) (left7 m c) t d

/-- What the body is called with at point `t`, the windows one by one, -/
def bodyPre (c : Dev nD) (t : Fin cfg0.N) : sProp 𝕄 :=
  iprop((pieces m 0 c).Φ t.castSucc ∗ (pieces m 0 c).owesAt () t.castSucc
    ∗ (∃ d, owns (c : Thread nD τ) (st0_0 t) fullShare ((pieces m 0 c).before 0 t d))
    ∗ (∃ d, owns (c : Thread nD τ) (st0_1 t) fullShare ((pieces m 0 c).before 1 t d))
    ∗ (∃ d, owns (c : Thread nD τ) (st0_2 t) fullShare ((pieces m 0 c).before 2 t d))
    ∗ (∃ d, owns (c : Thread nD τ) (st0_3 t) fullShare ((pieces m 0 c).before 3 t d))
    ∗ (∃ d, owns (c : Thread nD τ) (st0_4 t) fullShare ((pieces m 0 c).before 4 t d))
    ∗ (∃ d, owns (c : Thread nD τ) (st0_5 t) fullShare ((pieces m 0 c).before 5 t d))
    ∗ (∃ d, owns (c : Thread nD τ) (st0_6 t) fullShare ((pieces m 0 c).before 6 t d))
    ∗ (∃ d, owns (c : Thread nD τ) (st0_7 t) fullShare ((pieces m 0 c).before 7 t d))
    ∗ (∃ d, owns (c : Thread nD τ) (st0_8 t) fullShare ((pieces m 0 c).before 8 t d)))

/-- and what it returns. -/
def bodyPost (c : Dev nD) (t : Fin cfg0.N) : sProp 𝕄 :=
  iprop((pieces m 0 c).Φ t.succ ∗ (pieces m 0 c).owesAt () t.succ
    ∗ owns (c : Thread nD τ) (st0_0 t) fullShare ((pieces m 0 c).after 0 t)
    ∗ owns (c : Thread nD τ) (st0_1 t) fullShare ((pieces m 0 c).after 1 t)
    ∗ owns (c : Thread nD τ) (st0_2 t) fullShare ((pieces m 0 c).after 2 t)
    ∗ owns (c : Thread nD τ) (st0_3 t) fullShare ((pieces m 0 c).after 3 t)
    ∗ owns (c : Thread nD τ) (st0_4 t) fullShare ((pieces m 0 c).after 4 t)
    ∗ owns (c : Thread nD τ) (st0_5 t) fullShare ((pieces m 0 c).after 5 t)
    ∗ owns (c : Thread nD τ) (st0_6 t) fullShare ((pieces m 0 c).after 6 t)
    ∗ owns (c : Thread nD τ) (st0_7 t) fullShare ((pieces m 0 c).after 7 t)
    ∗ owns (c : Thread nD τ) (st0_8 t) fullShare ((pieces m 0 c).after 8 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (pieces m 0 c).Φ t.succ = (pieces m 0 c).Φ t.castSucc from rfl,
    show (pieces m 0 c).owesAt () t.succ = (pieces m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (blockAt m c 0 t) (blockAt m c 1 t) (blockAt m c 2 t) (blockAt m c 3 t)
    (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (pieces (F := F) m 0 c) (defs₀ (F := F)) Variants.none () Set.univ := fun t => by
  rw [bigSep_W0, bigSep_W0]
  exact sound_body m c t

-- the launch theorem's implicit arguments are found by unifying its conclusion with this one, which takes unfolding
-- plain definitions in a metavariable's type
set_option backward.isDefEq.respectTransparency.types false in
/-- From any memory with zero counters every weakly fair execution of the program terminates, faulting nowhere, and
    in every final state each array of the launch holds what the proof data say and every other unscoped buffer
    what the closing transpose leaves. -/
theorem run_main : θ_run defs (onTc (τ := τ) (main (F := F))) (s₀ m ρ)
    (Pipeline.FramePost cfgs (pieces m) 0 (Pipeline.afterTail₀ cfgs (pieces m) 0 (atEntry₀ m) [hostOps1])) :=
  Pipeline.θ_run_frame_around cfgs (pieces m) (0 : Fin 1) launch0 defs₀ Variants.none m ρ main
    (hbody := fun c => (body_obligation m c).loose) (hshare := fun c => (pieces m 0 c).share_full fun _ => rfl)
    (howed := fun _ _ => rfl) (V₀ := atEntry₀ m) (opss := [hostOps1]) (hsub := tail_sub) (hfresh := tail_fresh) (hkeep := tail_keeps)
    (hmain := main_around m Variants.none) (hA := pieces_A m) (hΦ := fun _ _ => rfl)

/-- The program runs to the end and its argument array ends as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans
    (atExit_arg0 m (pieces m) c)) (run_main m ρ)

end Cert.Kernel.Combine

end
-- ==== Proof.EntryIdeal.lean ====
/-
  The host program around the one kernel launch.

  The program computes, on the host, the four bilinear weights and the four gathered corner images from its one
  argument array (eleven stretches of host operations, the called clamp and pad functions among them), launches
  the combining kernel on them, and transposes the kernel's result back to channel-last (one host operation).
  This module names the buffers' contents when the launch is entered (`atEntry`, the fold of the host operations
  before it over the launch memory), shows that the program is those stretches, then the launch, then the
  transpose, that no host operation on either side writes the argument array or any array the kernel's windows
  stage, and names each window's block at a grid point.
-/
import proofs.«123371_j48232482734312_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, stretch by stretch. -/
abbrev before : List (List (HloOp τ sig (Elt F))) := [hostOps0, hostOps0_1, hostOps0_2, hostOps0_3, hostOps0_4, hostOps0_5, hostOps0_6, hostOps0_7, hostOps0_8, hostOps0_9, hostOps0_10]

/-- Core `c`'s buffer contents when the launch is entered: the host operations before it, folded over the launch
    memory. -/
abbrev atEntry₀ (c : Dev nD) : Valuation τ sig (Elt F) := StableHlo.after (List.flatten (before (F := F))) (fun b => m (c, b))
/-- The same read at a TensorCore reference. -/
abbrev atEntry (c : Dev nD) (b : Ref sig .tc) : Buf (Elt F) ((c : Thread nD τ).loc b) := atEntry₀ m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host stretches, the launch, and the closing transpose: it reduces to the launch continued by
    the transpose. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The closing transpose touches only buffers that are arrays of the launch or bypass it, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the launch (it writes the program's result, which no window stages). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

set_option maxHeartbeats 4000000 in
/-- No host operation before the launch writes the argument array: the launch finds it as the program was given it. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the closing transpose: whatever the launch leaves in its arrays, the argument array ends as given. -/
theorem atExit_arg0 (dats : (p : Fin _) → (c : Dev nD) → Dat τ (Elt F) Unit ℕ (UR sig nD τ) ℕ (cfgs p) c) (c : Dev nD) :
    Pipeline.afterTail₀ cfgs dats 0 (atEntry₀ m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (atEntry₀ m c) _ main_arg0 (by exact (by decide : ∀ w, Pipeline.arrRef spec0 w ≠ main_arg0))]
  exact atEntry_arg0 m c

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

end Cert.KernelIdeal.Combine

end
-- ==== Proof.BodyIdeal.lean ====
/-
  The body of the combining kernel, run once on whole staging buffers.

  At a grid point the body is handed four image blocks of shape [4, 3, 224, 224] (the four gathered corners of
  the bilinear stencil, channel-second), four weight blocks of shape [4, 1, 224, 224] and the output's staging
  buffer. It loads every block whole, multiplies each image block by its weight block spread over the three
  channels, adds the four products from the left, and stores the sum over the whole output buffer. (It also loads
  the output buffer once before the store; the value is not used.) This module states what the output buffer
  holds afterwards, `combined`, as the one store over the skeleton's payload, and proves the body's triple.
-/
import proofs.«123371_j48232482734312_2_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole image-sized buffer as one rectangle, and the whole weight-sized buffer as one. -/
abbrev imgRect : Rect S4x3x224x224 := Rect.unit (s := S4x3x224x224) ![0, 0, 0, 0] S4x3x224x224.size inb_S4x3x224x224_S4x3x224x224_0_0_0_0
abbrev wRect : Rect S4x1x224x224 := Rect.unit (s := S4x1x224x224) ![0, 0, 0, 0] S4x1x224x224.size inb_S4x1x224x224_S4x1x224x224_0_0_0_0

/-- What the output's staging buffer holds after the body, from the eight input blocks: the one store, over the
    whole buffer, of the weighted sum of the four corner blocks. -/
def combined (x0 x1 x2 x3 : Vec F S4x3x224x224 .f32) (x4 x5 x6 x7 : Vec F S4x1x224x224 .f32) : Vec F S4x3x224x224 .f32 :=
  View.canon [⟨imgRect, k0_pay1 (View.ld x4 wRect) (View.ld x0 imgRect) (View.ld x5 wRect) (View.ld x1 imgRect)
    (View.ld x6 wRect) (View.ld x2 imgRect) (View.ld x7 wRect) (View.ld x3 imgRect)⟩]

/-- The one store covers the buffer. -/
theorem combined_cover (p0 : Vec F S4x3x224x224 .f32) (y : S4x3x224x224.Idx) :
    ∃ pc ∈ ([⟨imgRect, p0⟩] : List (View.Piece (Elt F) S4x3x224x224 .f32)), y ∈ pc.1.set :=
  View.cover_of_tiled [⟨imgRect, p0⟩] S4x3x224x224.size (by rfl) y

set_option maxHeartbeats 1000000 in
/-- The body on whole staging buffers, the inputs' at contents `x0 … x7` and the output's at anything, runs to the
    continuation with the inputs' as they were and the output's at `combined` of them. -/
theorem sound_kernel (c : Dev nD) (E : Set ℕ) (i : grid0.Coords)
    (a1 : Memref sig .tc .vmem S4x3x224x224 .f32) (h1 : a1.IsWhole) (a2 : Memref sig .tc .vmem S4x3x224x224 .f32) (h2 : a2.IsWhole)
    (a3 : Memref sig .tc .vmem S4x3x224x224 .f32) (h3 : a3.IsWhole) (a4 : Memref sig .tc .vmem S4x3x224x224 .f32) (h4 : a4.IsWhole)
    (a5 : Memref sig .tc .vmem S4x1x224x224 .f32) (h5 : a5.IsWhole) (a6 : Memref sig .tc .vmem S4x1x224x224 .f32) (h6 : a6.IsWhole)
    (a7 : Memref sig .tc .vmem S4x1x224x224 .f32) (h7 : a7.IsWhole) (a8 : Memref sig .tc .vmem S4x1x224x224 .f32) (h8 : a8.IsWhole)
    (a9 : Memref sig .tc .vmem S4x3x224x224 .f32) (h9 : a9.IsWhole)
    (x0 x1 x2 x3 : Vec F S4x3x224x224 .f32) (x4 x5 x6 x7 : Vec F S4x1x224x224 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (combined x0 x1 x2 x3 x4 x5 x6 x7)) -∗ K ⟨⟩))
      ⊢ wp frame (wpE (defs₀ (F := F)) Variants.none c none) E (cc0__combine_kernel i a1 h1 a2 h2 a3 h3 a4 h4 a5 h5 a6 h6 a7 h7 a8 h8 a9 h9) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (combined_cover _)

end Cert.KernelIdeal.Combine

end
-- ==== Proof.FrameIdeal.lean ====
/-
  The launch of the combining kernel over its 32 grid points, and the program's run.

  Grid point `t` works on images `4 t … 4 t + 3` of the batch: each of the eight input windows stages its block of
  four images, the body leaves the weighted sum of the four corner blocks in the output's staging buffer, and the
  block is written back. This module gives the launch's proof data (every input buffer at its block, the output
  buffer at `combined` of the blocks), discharges the body's obligation at a generic point by the body's triple,
  and concludes the program's run: it terminates, nothing faults, every array of the launch ends at what the
  proof data say, and every other buffer at what the closing transpose leaves — in particular the argument
  array ends unchanged.
-/
import proofs.«123371_j48232482734312_2_alg».proof.Proof.EntryIdeal
import proofs.«123371_j48232482734312_2_alg».proof.Proof.BodyIdeal
import proofs.«123371_j48232482734312_2_alg».proof.Proof.Gen.KernelIdeal.Points

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! An input window's current staging buffer holds its block at every point, for any proof data whose array is the
    launch-entry contents and whose body leaves the block in place: each input window is fetched whole at every
    point, never idle, never clipped. One statement per input window. -/
theorem found0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-- The proof data of the launch on core `c`: the arrays as the launch finds them; after the body at point `t` each
    input's buffer at its block and the output's at the weighted sum of the corner blocks; the invariant is the
    untouched rest; nothing owed; full shares. -/
def pieces (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => combined (blockAt m c 0 t) (blockAt m c 1 t) (blockAt m c 2 t) (blockAt m c 3 t)
        (blockAt m c 4 t) (blockAt m c 5 t) (blockAt m c 6 t) (blockAt m c 7 t)
  Φ _ := Pipeline.ΦA spec0 c
  q _ := fullShare
  owed _ := 0

/-- The proof data's arrays are the launch-entry contents. -/
theorem pieces_A (c : Dev nD) (w : Fin cfg0.W) : (pieces m 0 c).A w = atEntry m c (Pipeline.arrRef spec0 w) := by
  dsimp only [pieces]

/-! What the body leaves, window by window. -/
theorem left0 (c : Dev nD) (t : Fin cfg0.N) : (pieces m 0 c).after 0 t = blockAt m c 0 t := by dsimp only [pieces]
theorem left1 (c : Dev nD) (t : Fin cfg0.N) : (pieces m 0 c).after 1 t = blockAt m c 1 t := by dsimp only [pieces]
theorem left2 (c : Dev nD) (t : Fin cfg0.N) : (pieces m 0 c).after 2 t = blockAt m c 2 t := by dsimp only [pieces]
theorem left3 (c : Dev nD) (t : Fin cfg0.N) : (pieces m 0 c).after 3 t = blockAt m c 3 t := by dsimp only [pieces]
theorem left4 (c : Dev nD) (t : Fin cfg0.N) : (pieces m 0 c).after 4 t = blockAt m c 4 t := by dsimp only [pieces]
theorem left5 (c : Dev nD) (t : Fin cfg0.N) : (pieces m 0 c).after 5 t = blockAt m c 5 t := by dsimp only [pieces]
theorem left6 (c : Dev nD) (t : Fin cfg0.N) : (pieces m 0 c).after 6 t = blockAt m c 6 t := by dsimp only [pieces]
theorem left7 (c : Dev nD) (t : Fin cfg0.N) : (pieces m 0 c).after 7 t = blockAt m c 7 t := by dsimp only [pieces]
theorem left8 (c : Dev nD) (t : Fin cfg0.N) : (pieces m 0 c).after 8 t
    = combined (blockAt m c 0 t) (blockAt m c 1 t) (blockAt m c 2 t) (blockAt m c 3 t)
        (blockAt m c 4 t) (blockAt m c 5 t) (blockAt m c 6 t) (blockAt m c 7 t) := by dsimp only [pieces]

/-! Each input's current staging buffer holds its block at every point. -/
theorem found0 (c : Dev nD) (t : Fin cfg0.N) (d) : (pieces m 0 c).before 0 t d = blockAt m c 0 t :=
  found0_of m (pieces m 0 c) (pieces_A m c 0) (left0 m c) t d
theorem found1 (c : Dev nD) (t : Fin cfg0.N) (d) : (pieces m 0 c).before 1 t d = blockAt m c 1 t :=
  found1_of m (pieces m 0 c) (pieces_A m c 1) (left1 m c) t d
theorem found2 (c : Dev nD) (t : Fin cfg0.N) (d) : (pieces m 0 c).before 2 t d = blockAt m c 2 t :=
  found2_of m (pieces m 0 c) (pieces_A m c 2) (left2 m c) t d
theorem found3 (c : Dev nD) (t : Fin cfg0.N) (d) : (pieces m 0 c).before 3 t d = blockAt m c 3 t :=
  found3_of m (pieces m 0 c) (pieces_A m c 3) (left3 m c) t d
theorem found4 (c : Dev nD) (t : Fin cfg0.N) (d) : (pieces m 0 c).before 4 t d = blockAt m c 4 t :=
  found4_of m (pieces m 0 c) (pieces_A m c 4) (left4 m c) t d
theorem found5 (c : Dev nD) (t : Fin cfg0.N) (d) : (pieces m 0 c).before 5 t d = blockAt m c 5 t :=
  found5_of m (pieces m 0 c) (pieces_A m c 5) (left5 m c) t d
theorem found6 (c : Dev nD) (t : Fin cfg0.N) (d) : (pieces m 0 c).before 6 t d = blockAt m c 6 t :=
  found6_of m (pieces m 0 c) (pieces_A m c 6) (left6 m c) t d
theorem found7 (c : Dev nD) (t : Fin cfg0.N) (d) : (pieces m 0 c).before 7 t d = blockAt m c 7 t :=
  found7_of m (pieces m 0 c) (pieces_A m c 7) (left7 m c) t d

/-- What the body is called with at point `t`, the windows one by one, -/
def bodyPre (c : Dev nD) (t : Fin cfg0.N) : sProp 𝕄 :=
  iprop((pieces m 0 c).Φ t.castSucc ∗ (pieces m 0 c).owesAt () t.castSucc
    ∗ (∃ d, owns (c : Thread nD τ) (st0_0 t) fullShare ((pieces m 0 c).before 0 t d))
    ∗ (∃ d, owns (c : Thread nD τ) (st0_1 t) fullShare ((pieces m 0 c).before 1 t d))
    ∗ (∃ d, owns (c : Thread nD τ) (st0_2 t) fullShare ((pieces m 0 c).before 2 t d))
    ∗ (∃ d, owns (c : Thread nD τ) (st0_3 t) fullShare ((pieces m 0 c).before 3 t d))
    ∗ (∃ d, owns (c : Thread nD τ) (st0_4 t) fullShare ((pieces m 0 c).before 4 t d))
    ∗ (∃ d, owns (c : Thread nD τ) (st0_5 t) fullShare ((pieces m 0 c).before 5 t d))
    ∗ (∃ d, owns (c : Thread nD τ) (st0_6 t) fullShare ((pieces m 0 c).before 6 t d))
    ∗ (∃ d, owns (c : Thread nD τ) (st0_7 t) fullShare ((pieces m 0 c).before 7 t d))
    ∗ (∃ d, owns (c : Thread nD τ) (st0_8 t) fullShare ((pieces m 0 c).before 8 t d)))

/-- and what it returns. -/
def bodyPost (c : Dev nD) (t : Fin cfg0.N) : sProp 𝕄 :=
  iprop((pieces m 0 c).Φ t.succ ∗ (pieces m 0 c).owesAt () t.succ
    ∗ owns (c : Thread nD τ) (st0_0 t) fullShare ((pieces m 0 c).after 0 t)
    ∗ owns (c : Thread nD τ) (st0_1 t) fullShare ((pieces m 0 c).after 1 t)
    ∗ owns (c : Thread nD τ) (st0_2 t) fullShare ((pieces m 0 c).after 2 t)
    ∗ owns (c : Thread nD τ) (st0_3 t) fullShare ((pieces m 0 c).after 3 t)
    ∗ owns (c : Thread nD τ) (st0_4 t) fullShare ((pieces m 0 c).after 4 t)
    ∗ owns (c : Thread nD τ) (st0_5 t) fullShare ((pieces m 0 c).after 5 t)
    ∗ owns (c : Thread nD τ) (st0_6 t) fullShare ((pieces m 0 c).after 6 t)
    ∗ owns (c : Thread nD τ) (st0_7 t) fullShare ((pieces m 0 c).after 7 t)
    ∗ owns (c : Thread nD τ) (st0_8 t) fullShare ((pieces m 0 c).after 8 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (pieces m 0 c).Φ t.succ = (pieces m 0 c).Φ t.castSucc from rfl,
    show (pieces m 0 c).owesAt () t.succ = (pieces m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (blockAt m c 0 t) (blockAt m c 1 t) (blockAt m c 2 t) (blockAt m c 3 t)
    (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (pieces (F := F) m 0 c) (defs₀ (F := F)) Variants.none () Set.univ := fun t => by
  rw [bigSep_W0, bigSep_W0]
  exact sound_body m c t

-- the launch theorem's implicit arguments are found by unifying its conclusion with this one, which takes unfolding
-- plain definitions in a metavariable's type
set_option backward.isDefEq.respectTransparency.types false in
/-- From any memory with zero counters every weakly fair execution of the program terminates, faulting nowhere, and
    in every final state each array of the launch holds what the proof data say and every other unscoped buffer
    what the closing transpose leaves. -/
theorem run_main : θ_run defs (onTc (τ := τ) (main (F := F))) (s₀ m ρ)
    (Pipeline.FramePost cfgs (pieces m) 0 (Pipeline.afterTail₀ cfgs (pieces m) 0 (atEntry₀ m) [hostOps1])) :=
  Pipeline.θ_run_frame_around cfgs (pieces m) (0 : Fin 1) launch0 defs₀ Variants.none m ρ main
    (hbody := fun c => (body_obligation m c).loose) (hshare := fun c => (pieces m 0 c).share_full fun _ => rfl)
    (howed := fun _ _ => rfl) (V₀ := atEntry₀ m) (opss := [hostOps1]) (hsub := tail_sub) (hfresh := tail_fresh) (hkeep := tail_keeps)
    (hmain := main_around m Variants.none) (hA := pieces_A m) (hΦ := fun _ _ => rfl)

/-- The program runs to the end and its argument array ends as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans
    (atExit_arg0 m (pieces m) c)) (run_main m ρ)

end Cert.KernelIdeal.Combine

end
-- ==== Proof.LibChannelLayouts.lean ====
/-
  Channel-second and channel-last images read at an index by coordinates, sizes generic.

  A batch of images is stored either channel-last, shape [n, h, w, c], or channel-second, shape [n, c, h, w].
  The lemmas read, at explicit coordinates: the transposes between the two layouts, a one-channel block
  [n, 1, h, w] spread over c channels, a [n, h, w] plane given a unit channel axis in either position, and a
  [n, h, w, 1] column spread over c channels.
-/
import Idealize.ShloMosaic.Lib.Pipeline.Value
import Idealize.ShloMosaic.Lib.ValueIdx

namespace Cert.Lib

open Idealize.ShloMosaic Idealize.ShloMosaic.ValueIdx

variable {α : Type} {n c h w : Nat}

/-- Channel-last to channel-second: entry (a, b, p, q) of the transposed array is entry (a, p, q, b). -/
theorem toChannelSecond_apply (x : (⟨4, ![n, h, w, c]⟩ : Shape).Idx → α)
    (ht : (⟨4, ![n, h, w, c]⟩ : Shape).Transposes [0, 3, 1, 2] ⟨4, ![n, c, h, w]⟩)
    (a : Fin n) (b : Fin c) (p : Fin h) (q : Fin w) :
    transpose ⟨4, ![n, c, h, w]⟩ [0, 3, 1, 2] x ht (ix4 a b p q) = x (ix4 a p q b) :=
  transpose_apply [0, 3, 1, 2] x ht (ix4 a b p q) (ix4 a p q b) (fun d => by
    match d with | ⟨0, _⟩ => rfl | ⟨1, _⟩ => rfl | ⟨2, _⟩ => rfl | ⟨3, _⟩ => rfl)

/-- Channel-second to channel-last: entry (a, p, q, b) of the transposed array is entry (a, b, p, q). -/
theorem toChannelLast_apply (x : (⟨4, ![n, c, h, w]⟩ : Shape).Idx → α)
    (ht : (⟨4, ![n, c, h, w]⟩ : Shape).Transposes [0, 2, 3, 1] ⟨4, ![n, h, w, c]⟩)
    (a : Fin n) (p : Fin h) (q : Fin w) (b : Fin c) :
    transpose ⟨4, ![n, h, w, c]⟩ [0, 2, 3, 1] x ht (ix4 a p q b) = x (ix4 a b p q) :=
  transpose_apply [0, 2, 3, 1] x ht (ix4 a p q b) (ix4 a b p q) (fun d => by
    match d with | ⟨0, _⟩ => rfl | ⟨1, _⟩ => rfl | ⟨2, _⟩ => rfl | ⟨3, _⟩ => rfl)

/-- A one-channel block spread over the channels: every channel reads channel 0. -/
theorem spreadChannels_apply (x : (⟨4, ![n, 1, h, w]⟩ : Shape).Idx → α)
    (hb : (⟨4, ![n, 1, h, w]⟩ : Shape).Broadcasts ⟨4, ![n, c, h, w]⟩)
    (a : Fin n) (b : Fin c) (p : Fin h) (q : Fin w) :
    broadcastTo ⟨4, ![n, c, h, w]⟩ x hb (ix4 a b p q) = x (ix4 a 0 p q) :=
  broadcastTo_apply x hb (ix4 a b p q) (ix4 a 0 p q) (fun d => by
    match d with
    | ⟨0, _⟩ => show a.val = if n = 1 then 0 else a.val; split_ifs with h1 <;> [(have := a.isLt; omega); rfl]
    | ⟨1, _⟩ => rfl
    | ⟨2, _⟩ => show p.val = if h = 1 then 0 else p.val; split_ifs with h1 <;> [(have := p.isLt; omega); rfl]
    | ⟨3, _⟩ => show q.val = if w = 1 then 0 else q.val; split_ifs with h1 <;> [(have := q.isLt; omega); rfl])

/-- A plane per image given a unit channel axis in second position: entry (a, 0, p, q) is entry (a, p, q). -/
theorem unitChannelSecond_apply (x : (⟨3, ![n, h, w]⟩ : Shape).Idx → α)
    (hb : (⟨3, ![n, h, w]⟩ : Shape).BroadcastsInDim ⟨4, ![n, 1, h, w]⟩ ![0, 2, 3])
    (a : Fin n) (z : Fin 1) (p : Fin h) (q : Fin w) :
    broadcastInDim ⟨4, ![n, 1, h, w]⟩ ![0, 2, 3] hb x (ix4 a z p q) = x (ix3 a p q) :=
  broadcastInDim_apply ![0, 2, 3] hb x (ix4 a z p q) (ix3 a p q) (fun d => by
    match d with
    | ⟨0, _⟩ => show a.val = if n = 1 then 0 else a.val; split_ifs with h1 <;> [(have := a.isLt; omega); rfl]
    | ⟨1, _⟩ => show p.val = if h = 1 then 0 else p.val; split_ifs with h1 <;> [(have := p.isLt; omega); rfl]
    | ⟨2, _⟩ => show q.val = if w = 1 then 0 else q.val; split_ifs with h1 <;> [(have := q.isLt; omega); rfl])

/-- A plane per image given a unit channel axis in last position: entry (a, p, q, 0) is entry (a, p, q). -/
theorem unitChannelLast_apply (x : (⟨3, ![n, h, w]⟩ : Shape).Idx → α)
    (hb : (⟨3, ![n, h, w]⟩ : Shape).BroadcastsInDim ⟨4, ![n, h, w, 1]⟩ ![0, 1, 2])
    (a : Fin n) (p : Fin h) (q : Fin w) (z : Fin 1) :
    broadcastInDim ⟨4, ![n, h, w, 1]⟩ ![0, 1, 2] hb x (ix4 a p q z) = x (ix3 a p q) :=
  broadcastInDim_apply ![0, 1, 2] hb x (ix4 a p q z) (ix3 a p q) (fun d => by
    match d with
    | ⟨0, _⟩ => show a.val = if n = 1 then 0 else a.val; split_ifs with h1 <;> [(have := a.isLt; omega); rfl]
    | ⟨1, _⟩ => show p.val = if h = 1 then 0 else p.val; split_ifs with h1 <;> [(have := p.isLt; omega); rfl]
    | ⟨2, _⟩ => show q.val = if w = 1 then 0 else q.val; split_ifs with h1 <;> [(have := q.isLt; omega); rfl])

/-- A one-channel column spread over the channels, channel-last: every channel reads channel 0. -/
theorem spreadLast_apply (x : (⟨4, ![n, h, w, 1]⟩ : Shape).Idx → α)
    (hb : (⟨4, ![n, h, w, 1]⟩ : Shape).BroadcastsInDim ⟨4, ![n, h, w, c]⟩ ![0, 1, 2, 3])
    (a : Fin n) (p : Fin h) (q : Fin w) (b : Fin c) :
    broadcastInDim ⟨4, ![n, h, w, c]⟩ ![0, 1, 2, 3] hb x (ix4 a p q b) = x (ix4 a p q 0) :=
  broadcastInDim_apply ![0, 1, 2, 3] hb x (ix4 a p q b) (ix4 a p q 0) (fun d => by
    match d with
    | ⟨0, _⟩ => show a.val = if n = 1 then 0 else a.val; split_ifs with h1 <;> [(have := a.isLt; omega); rfl]
    | ⟨1, _⟩ => show p.val = if h = 1 then 0 else p.val; split_ifs with h1 <;> [(have := p.isLt; omega); rfl]
    | ⟨2, _⟩ => show q.val = if w = 1 then 0 else q.val; split_ifs with h1 <;> [(have := q.isLt; omega); rfl]
    | ⟨3, _⟩ => rfl)

end Cert.Lib
-- ==== Proof.PayloadIdeal.lean ====
/-
  The weighted sum of four corner images, as a function of indices, and the kernel body's arithmetic read at an index.

  `mix` is the specification of the kernel's result on the extended reals: at image a, channel b, pixel (p, q)
  it is  w₀(a,p,q)·c₀(a,b,p,q) + w₁(a,p,q)·c₁(a,b,p,q) + w₂(a,p,q)·c₂(a,b,p,q) + w₃(a,p,q)·c₃(a,b,p,q),  the
  four products added from the left, the weights stored with a unit channel axis. The body's payload computes
  exactly this on a block of four images: each weight block is spread over the three channels, multiplied entry
  by entry with its corner block, and the products are added from the left.
-/
import proofs.«123371_j48232482734312_2_alg».proof.Proof.Gen.KernelIdeal.Skeleton
import proofs.«123371_j48232482734312_2_alg».proof.Proof.LibChannelLayouts
import Idealize.ShloMosaic.Lib.Pipeline.Value
import Idealize.ShloMosaic.Lib.ValueIdx
import Idealize.ShloMosaic.PureOps.Ideal

noncomputable section

namespace Cert.KernelIdeal.Combine

open Cert.KernelIdeal Cert.KernelIdeal.Gen
open Idealize.ShloMosaic Idealize.ShloMosaic.ValueIdx

/-- The weighted sum at coordinates, for `n` images: weights `w₀ … w₃` of shape [n, 1, 224, 224], corners
    `c₀ … c₃` of shape [n, 3, 224, 224]. -/
def mixAt {n : Nat} (c0 c1 c2 c3 : (⟨4, ![n, 3, 224, 224]⟩ : Shape).Idx → EReal) (w0 w1 w2 w3 : (⟨4, ![n, 1, 224, 224]⟩ : Shape).Idx → EReal)
    (a : Fin n) (b : Fin 3) (p q : Fin 224) : EReal :=
  w0 (ix4 a 0 p q) * c0 (ix4 a b p q) + w1 (ix4 a 0 p q) * c1 (ix4 a b p q)
    + w2 (ix4 a 0 p q) * c2 (ix4 a b p q) + w3 (ix4 a 0 p q) * c3 (ix4 a b p q)

/-- The same as a whole array. -/
def mix {n : Nat} (c0 c1 c2 c3 : (⟨4, ![n, 3, 224, 224]⟩ : Shape).Idx → EReal) (w0 w1 w2 w3 : (⟨4, ![n, 1, 224, 224]⟩ : Shape).Idx → EReal) :
    (⟨4, ![n, 3, 224, 224]⟩ : Shape).Idx → EReal :=
  fun i => mixAt c0 c1 c2 c3 w0 w1 w2 w3 (i 0) (i 1) (i 2) (i 3)

theorem mix_apply {n : Nat} (c0 c1 c2 c3 : (⟨4, ![n, 3, 224, 224]⟩ : Shape).Idx → EReal) (w0 w1 w2 w3 : (⟨4, ![n, 1, 224, 224]⟩ : Shape).Idx → EReal)
    (a : Fin n) (b : Fin 3) (p q : Fin 224) :
    mix c0 c1 c2 c3 w0 w1 w2 w3 (ix4 a b p q) = mixAt c0 c1 c2 c3 w0 w1 w2 w3 a b p q := rfl

/-- The body's payload on a block of four images is the weighted sum of its corner blocks. -/
theorem payload_eq (v0 : Vec Ideal S4x1x224x224 .f32) (v2 : Vec Ideal S4x3x224x224 .f32) (v6 : Vec Ideal S4x1x224x224 .f32) (v8 : Vec Ideal S4x3x224x224 .f32)
    (v13 : Vec Ideal S4x1x224x224 .f32) (v15 : Vec Ideal S4x3x224x224 .f32) (v20 : Vec Ideal S4x1x224x224 .f32) (v22 : Vec Ideal S4x3x224x224 .f32) :
    k0_pay1 (F := Ideal) v0 v2 v6 v8 v13 v15 v20 v22 = mix (n := 4) v2 v8 v15 v22 v0 v6 v13 v20 := by
  funext j
  obtain ⟨a, b, p, q, rfl⟩ : ∃ (a : Fin 4) (b : Fin 3) (p q : Fin 224), j = ix4 a b p q := ⟨j 0, j 1, j 2, j 3, eq_ix4 j⟩
  rw [mix_apply]
  unfold k0_pay1 mixAt
  simp only [shapeCast_self]
  show broadcastTo S4x3x224x224 v0 _ (ix4 a b p q) * v2 (ix4 a b p q) + broadcastTo S4x3x224x224 v6 _ (ix4 a b p q) * v8 (ix4 a b p q)
      + broadcastTo S4x3x224x224 v13 _ (ix4 a b p q) * v15 (ix4 a b p q) + broadcastTo S4x3x224x224 v20 _ (ix4 a b p q) * v22 (ix4 a b p q) = _
  rw [Cert.Lib.spreadChannels_apply v0, Cert.Lib.spreadChannels_apply v6, Cert.Lib.spreadChannels_apply v13, Cert.Lib.spreadChannels_apply v20]

end Cert.KernelIdeal.Combine

end
-- ==== Proof.ArrayIdeal.lean ====
/-
  From the blocks the grid points write back to the kernel's whole result array, and on to the program's result.

  Grid point `t` handles images `4 t … 4 t + 3`: every window's block index there is (t, 0, 0, 0), so entry
  (a, ·, p, q) of a block is entry (4 t + a, ·, p, q) of its array. Hence what point `t` writes back is block `t`
  of ONE function of the eight arrays the launch finds, the weighted sum `mix`; the 32 blocks tile the result
  array (image `i` lies in block `i / 4`), so after the launch the array IS that function; and the program's
  result is its transpose to channel-last.
-/
import proofs.«123371_j48232482734312_2_alg».proof.Proof.FrameIdeal
import proofs.«123371_j48232482734312_2_alg».proof.Proof.PayloadIdeal
import Idealize.ShloMosaic.Lib.Pipeline.Value
import Idealize.ShloMosaic.Lib.StableHlo.Run

set_option maxRecDepth 16384

noncomputable section

namespace Cert.KernelIdeal.Combine

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0, 0, 0] : Fin 4 → Nat) = fun _ => 0 := funext fun a => by fin_cases a <;> rfl

/-- The image of the batch that entry `a` of grid point `t`'s block is. -/
def imageOf (t : Fin cfg0.N) (a : Fin 4) : Fin 128 :=
  ⟨4 * t.val + a.val, by have ht : t.val < 32 := lt_of_lt_of_eq t.isLt N_0; have := a.isLt; omega⟩

/-! Every window's block index at point `t` is (t, 0, 0, 0): decided over the 32 points. -/
theorem index0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem index1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)
theorem index2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)
theorem index3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)
theorem index4 : ∀ t : Fin cfg0.N, win0_4.index t (0 : Fin 4) = t.val ∧ win0_4.index t (1 : Fin 4) = 0
    ∧ win0_4.index t (2 : Fin 4) = 0 ∧ win0_4.index t (3 : Fin 4) = 0 :=
  (by decide +kernel : ∀ t : Fin grid0.N, _)
theorem index5 : ∀ t : Fin cfg0.N, win0_5.index t (0 : Fin 4) = t.val ∧ win0_5.index t (1 : Fin 4) = 0
    ∧ win0_5.index t (2 : Fin 4) = 0 ∧ win0_5.index t (3 : Fin 4) = 0 :=
  (by decide +kernel : ∀ t : Fin grid0.N, _)
theorem index6 : ∀ t : Fin cfg0.N, win0_6.index t (0 : Fin 4) = t.val ∧ win0_6.index t (1 : Fin 4) = 0
    ∧ win0_6.index t (2 : Fin 4) = 0 ∧ win0_6.index t (3 : Fin 4) = 0 :=
  (by decide +kernel : ∀ t : Fin grid0.N, _)
theorem index7 : ∀ t : Fin cfg0.N, win0_7.index t (0 : Fin 4) = t.val ∧ win0_7.index t (1 : Fin 4) = 0
    ∧ win0_7.index t (2 : Fin 4) = 0 ∧ win0_7.index t (3 : Fin 4) = 0 :=
  (by decide +kernel : ∀ t : Fin grid0.N, _)
theorem index8 : ∀ t : Fin cfg0.N, win0_8.index t (0 : Fin 4) = t.val ∧ win0_8.index t (1 : Fin 4) = 0
    ∧ win0_8.index t (2 : Fin 4) = 0 ∧ win0_8.index t (3 : Fin 4) = 0 :=
  (by decide +kernel : ∀ t : Fin grid0.N, _)

/-! An entry of a window's block at point `t` is the entry of its array in image `4 t + a`. -/
theorem block0_at (c : Dev nD) (t : Fin cfg0.N) (a : Fin 4) (b : Fin 3) (p q : Fin 224) :
    blockAt m c 0 t (ix4 a b p q) = atEntry m c main_v128 (ix4 (imageOf t a) b p q) := by
  show atEntry m c main_v128 (((cfg0.win 0).blk t).view.emb (ix4 a b p q)) = _
  refine congrArg _ (funext fun d => Fin.ext ?_)
  obtain ⟨e0, e1, e2, e3⟩ := index0 t
  match d with
  | ⟨0, _⟩ => show win0_0.index t (0 : Fin 4) * 4 + 1 * a.val = 4 * t.val + a.val; omega
  | ⟨1, _⟩ => show win0_0.index t (1 : Fin 4) * 3 + 1 * b.val = b.val; omega
  | ⟨2, _⟩ => show win0_0.index t (2 : Fin 4) * 224 + 1 * p.val = p.val; omega
  | ⟨3, _⟩ => show win0_0.index t (3 : Fin 4) * 224 + 1 * q.val = q.val; omega
theorem block1_at (c : Dev nD) (t : Fin cfg0.N) (a : Fin 4) (b : Fin 3) (p q : Fin 224) :
    blockAt m c 1 t (ix4 a b p q) = atEntry m c main_v129 (ix4 (imageOf t a) b p q) := by
  show atEntry m c main_v129 (((cfg0.win 1).blk t).view.emb (ix4 a b p q)) = _
  refine congrArg _ (funext fun d => Fin.ext ?_)
  obtain ⟨e0, e1, e2, e3⟩ := index1 t
  match d with
  | ⟨0, _⟩ => show win0_1.index t (0 : Fin 4) * 4 + 1 * a.val = 4 * t.val + a.val; omega
  | ⟨1, _⟩ => show win0_1.index t (1 : Fin 4) * 3 + 1 * b.val = b.val; omega
  | ⟨2, _⟩ => show win0_1.index t (2 : Fin 4) * 224 + 1 * p.val = p.val; omega
  | ⟨3, _⟩ => show win0_1.index t (3 : Fin 4) * 224 + 1 * q.val = q.val; omega
theorem block2_at (c : Dev nD) (t : Fin cfg0.N) (a : Fin 4) (b : Fin 3) (p q : Fin 224) :
    blockAt m c 2 t (ix4 a b p q) = atEntry m c main_v130 (ix4 (imageOf t a) b p q) := by
  show atEntry m c main_v130 (((cfg0.win 2).blk t).view.emb (ix4 a b p q)) = _
  refine congrArg _ (funext fun d => Fin.ext ?_)
  obtain ⟨e0, e1, e2, e3⟩ := index2 t
  match d with
  | ⟨0, _⟩ => show win0_2.index t (0 : Fin 4) * 4 + 1 * a.val = 4 * t.val + a.val; omega
  | ⟨1, _⟩ => show win0_2.index t (1 : Fin 4) * 3 + 1 * b.val = b.val; omega
  | ⟨2, _⟩ => show win0_2.index t (2 : Fin 4) * 224 + 1 * p.val = p.val; omega
  | ⟨3, _⟩ => show win0_2.index t (3 : Fin 4) * 224 + 1 * q.val = q.val; omega
theorem block3_at (c : Dev nD) (t : Fin cfg0.N) (a : Fin 4) (b : Fin 3) (p q : Fin 224) :
    blockAt m c 3 t (ix4 a b p q) = atEntry m c main_v131 (ix4 (imageOf t a) b p q) := by
  show atEntry m c main_v131 (((cfg0.win 3).blk t).view.emb (ix4 a b p q)) = _
  refine congrArg _ (funext fun d => Fin.ext ?_)
  obtain ⟨e0, e1, e2, e3⟩ := index3 t
  match d with
  | ⟨0, _⟩ => show win0_3.index t (0 : Fin 4) * 4 + 1 * a.val = 4 * t.val + a.val; omega
  | ⟨1, _⟩ => show win0_3.index t (1 : Fin 4) * 3 + 1 * b.val = b.val; omega
  | ⟨2, _⟩ => show win0_3.index t (2 : Fin 4) * 224 + 1 * p.val = p.val; omega
  | ⟨3, _⟩ => show win0_3.index t (3 : Fin 4) * 224 + 1 * q.val = q.val; omega
theorem block4_at (c : Dev nD) (t : Fin cfg0.N) (a : Fin 4) (z : Fin 1) (p q : Fin 224) :
    blockAt m c 4 t (ix4 a z p q) = atEntry m c main_v14 (ix4 (imageOf t a) z p q) := by
  show atEntry m c main_v14 (((cfg0.win 4).blk t).view.emb (ix4 a z p q)) = _
  refine congrArg _ (funext fun d => Fin.ext ?_)
  obtain ⟨e0, e1, e2, e3⟩ := index4 t
  match d with
  | ⟨0, _⟩ => show win0_4.index t (0 : Fin 4) * 4 + 1 * a.val = 4 * t.val + a.val; omega
  | ⟨1, _⟩ => show win0_4.index t (1 : Fin 4) * 1 + 1 * z.val = z.val; omega
  | ⟨2, _⟩ => show win0_4.index t (2 : Fin 4) * 224 + 1 * p.val = p.val; omega
  | ⟨3, _⟩ => show win0_4.index t (3 : Fin 4) * 224 + 1 * q.val = q.val; omega
theorem block5_at (c : Dev nD) (t : Fin cfg0.N) (a : Fin 4) (z : Fin 1) (p q : Fin 224) :
    blockAt m c 5 t (ix4 a z p q) = atEntry m c main_v18 (ix4 (imageOf t a) z p q) := by
  show atEntry m c main_v18 (((cfg0.win 5).blk t).view.emb (ix4 a z p q)) = _
  refine congrArg _ (funext fun d => Fin.ext ?_)
  obtain ⟨e0, e1, e2, e3⟩ := index5 t
  match d with
  | ⟨0, _⟩ => show win0_5.index t (0 : Fin 4) * 4 + 1 * a.val = 4 * t.val + a.val; omega
  | ⟨1, _⟩ => show win0_5.index t (1 : Fin 4) * 1 + 1 * z.val = z.val; omega
  | ⟨2, _⟩ => show win0_5.index t (2 : Fin 4) * 224 + 1 * p.val = p.val; omega
  | ⟨3, _⟩ => show win0_5.index t (3 : Fin 4) * 224 + 1 * q.val = q.val; omega
theorem block6_at (c : Dev nD) (t : Fin cfg0.N) (a : Fin 4) (z : Fin 1) (p q : Fin 224) :
    blockAt m c 6 t (ix4 a z p q) = atEntry m c main_v22 (ix4 (imageOf t a) z p q) := by
  show atEntry m c main_v22 (((cfg0.win 6).blk t).view.emb (ix4 a z p q)) = _
  refine congrArg _ (funext fun d => Fin.ext ?_)
  obtain ⟨e0, e1, e2, e3⟩ := index6 t
  match d with
  | ⟨0, _⟩ => show win0_6.index t (0 : Fin 4) * 4 + 1 * a.val = 4 * t.val + a.val; omega
  | ⟨1, _⟩ => show win0_6.index t (1 : Fin 4) * 1 + 1 * z.val = z.val; omega
  | ⟨2, _⟩ => show win0_6.index t (2 : Fin 4) * 224 + 1 * p.val = p.val; omega
  | ⟨3, _⟩ => show win0_6.index t (3 : Fin 4) * 224 + 1 * q.val = q.val; omega
theorem block7_at (c : Dev nD) (t : Fin cfg0.N) (a : Fin 4) (z : Fin 1) (p q : Fin 224) :
    blockAt m c 7 t (ix4 a z p q) = atEntry m c main_v24 (ix4 (imageOf t a) z p q) := by
  show atEntry m c main_v24 (((cfg0.win 7).blk t).view.emb (ix4 a z p q)) = _
  refine congrArg _ (funext fun d => Fin.ext ?_)
  obtain ⟨e0, e1, e2, e3⟩ := index7 t
  match d with
  | ⟨0, _⟩ => show win0_7.index t (0 : Fin 4) * 4 + 1 * a.val = 4 * t.val + a.val; omega
  | ⟨1, _⟩ => show win0_7.index t (1 : Fin 4) * 1 + 1 * z.val = z.val; omega
  | ⟨2, _⟩ => show win0_7.index t (2 : Fin 4) * 224 + 1 * p.val = p.val; omega
  | ⟨3, _⟩ => show win0_7.index t (3 : Fin 4) * 224 + 1 * q.val = q.val; omega

/-- The kernel's whole result array as one function of the eight arrays the launch finds. -/
def kernelArray (c : Dev nD) : S128x3x224x224.Idx → EReal :=
  mix (n := 128) (atEntry m c main_v128) (atEntry m c main_v129) (atEntry m c main_v130) (atEntry m c main_v131)
    (atEntry m c main_v14) (atEntry m c main_v18) (atEntry m c main_v22) (atEntry m c main_v24)

/-- What grid point `t` writes back is block `t` of that function. -/
theorem wrote (c : Dev nD) (t : Fin cfg0.N) :
    (pieces m 0 c).flushed 8 t = ((cfg0.win 8).blk t).view.read (Elt Ideal) (kernelArray m c) := by
  show (cfg0.win 8).cut (grid0.coords t) ((pieces m 0 c).after 8 t) = _
  rw [left8]
  unfold combined
  rw [View.canon_unit_zero origin]
  simp only [View.ld_unit_zero (S := S4x3x224x224) origin, View.ld_unit_zero (S := S4x1x224x224) origin]
  rw [payload_eq]
  funext j
  obtain ⟨a, b, p, q, rfl⟩ : ∃ (a : Fin 4) (b : Fin 3) (p q : Fin 224), j = ix4 a b p q := ⟨j 0, j 1, j 2, j 3, eq_ix4 j⟩
  have hout : ((cfg0.win 8).blk t).view.read (Elt Ideal) (kernelArray m c) (ix4 a b p q) = kernelArray m c (ix4 (imageOf t a) b p q) := by
    show kernelArray m c (((cfg0.win 8).blk t).view.emb (ix4 a b p q)) = _
    refine congrArg _ (funext fun d => Fin.ext ?_)
    obtain ⟨e0, e1, e2, e3⟩ := index8 t
    match d with
    | ⟨0, _⟩ => show win0_8.index t (0 : Fin 4) * 4 + 1 * a.val = 4 * t.val + a.val; omega
    | ⟨1, _⟩ => show win0_8.index t (1 : Fin 4) * 3 + 1 * b.val = b.val; omega
    | ⟨2, _⟩ => show win0_8.index t (2 : Fin 4) * 224 + 1 * p.val = p.val; omega
    | ⟨3, _⟩ => show win0_8.index t (3 : Fin 4) * 224 + 1 * q.val = q.val; omega
  refine Eq.trans ?_ hout.symm
  show mix (n := 4) (blockAt m c 0 t) (blockAt m c 1 t) (blockAt m c 2 t) (blockAt m c 3 t)
      (blockAt m c 4 t) (blockAt m c 5 t) (blockAt m c 6 t) (blockAt m c 7 t) (ix4 a b p q) = _
  unfold kernelArray
  rw [mix_apply, mix_apply]
  unfold mixAt
  rw [block0_at, block1_at, block2_at, block3_at, block4_at, block5_at, block6_at, block7_at]

/-- An index of the result array is in point `t`'s block iff each coordinate is in the block's range on its axis. -/
theorem mem_block (t : Fin cfg0.N) (i : S128x3x224x224.Idx) :
    i ∈ ((cfg0.win 8).blk t).view.set ↔ ∀ a : Fin 4, win0_8.index t a * S4x3x224x224.size a ≤ (i a).val
      ∧ (i a).val < win0_8.index t a * S4x3x224x224.size a + S4x3x224x224.size a := by
  show i ∈ ((View.whole main_v132).slice (win0_8.rect t)).set ↔ _
  rw [View.set_slice_whole, Rect.mem_set_unit]
  exact Iff.rfl

/-- The 32 blocks tile the result array: image `i` lies in block `i / 4`. -/
theorem tiled (i : S128x3x224x224.Idx) : ∃ t : Fin cfg0.N, (cfg0.win 8).flush t = true ∧ i ∈ ((cfg0.win 8).blk t).view.set := by
  have h0 : (i 0).val < 128 := (i 0).isLt
  have h1 : (i 1).val < 3 := (i 1).isLt
  have h2 : (i 2).val < 224 := (i 2).isLt
  have h3 : (i 3).val < 224 := (i 3).isLt
  let t : Fin cfg0.N := ⟨(i 0).val / 4, by show (i 0).val / 4 < grid0.N; rw [N_0]; omega⟩
  refine ⟨t, flush0_8 t, ?_⟩
  rw [mem_block]
  obtain ⟨e0, e1, e2, e3⟩ := index8 t
  have et : t.val = (i 0).val / 4 := rfl
  intro a
  match a with
  | ⟨0, _⟩ => show win0_8.index t (0 : Fin 4) * 4 ≤ (i 0).val ∧ (i 0).val < win0_8.index t (0 : Fin 4) * 4 + 4; omega
  | ⟨1, _⟩ => show win0_8.index t (1 : Fin 4) * 3 ≤ (i 1).val ∧ (i 1).val < win0_8.index t (1 : Fin 4) * 3 + 3; omega
  | ⟨2, _⟩ => show win0_8.index t (2 : Fin 4) * 224 ≤ (i 2).val ∧ (i 2).val < win0_8.index t (2 : Fin 4) * 224 + 224; omega
  | ⟨3, _⟩ => show win0_8.index t (3 : Fin 4) * 224 ≤ (i 3).val ∧ (i 3).val < win0_8.index t (3 : Fin 4) * 224 + 224; omega

/-- After the launch the result array is the weighted sum of the arrays the launch found. -/
theorem array_eq (c : Dev nD) : (pieces m 0 c).arrAt 8 cfg0.N = kernelArray m c :=
  (pieces m 0 c).arrAt_eq_of_cover 8 (kernelArray m c) (fun t _ => wrote m c t) tiled

/-- The program's result: the closing transpose of that array. -/
theorem result_eq (c : Dev nD) :
    Pipeline.afterTail₀ cfgs (pieces m) 0 (atEntry₀ m) [hostOps1] c main_v133
      = transpose S128x224x224x3 [0, 2, 3, 1] (kernelArray m c) transposes_S128x3x224x224_S128x224x224x3_0_2_3_1 := by
  unfold Pipeline.afterTail₀
  show StableHlo.after hostOps1 _ (Proc.devRef .tc main_v133) = _
  after_results
  exact congrArg (fun x => transpose S128x224x224x3 [0, 2, 3, 1] x transposes_S128x3x224x224_S128x224x224x3_0_2_3_1)
    ((Pipeline.withArrays_arr spec0 launch0.win.arr_inj c _ _ 8).trans (array_eq m c))

end Cert.KernelIdeal.Combine

end
-- ==== Proof.EntryCornersA.lean ====
/-
  What the launch finds in the arrays its windows stage: the first two corner images (top-left, bottom-left).

  The host operations before the launch are, operation for operation, those of the reference's program: the
  floor and fractional part of the two coordinate channels, the four products of (1 − fraction) and fraction, the
  padded image, the clamped and wrapped integer corner coordinates, and the four gathers. So each array the
  launch finds is a value the reference's program also computes, of the same argument array — here re-laid for
  the kernel (corner images transposed to channel-second, weight planes given a unit channel axis). The shared
  operations are never opened: both sides are the same term.
-/
import proofs.«123371_j48232482734312_2_alg».proof.Proof.EntryIdeal
import proofs.«123371_j48232482734312_2_alg».proof.Proof.Gen.ReferenceIdeal.Read
import Idealize.ShloMosaic.Lib.StableHlo.Run
import Idealize.ShloMosaic.PureOps.Ideal

set_option maxRecDepth 16384

noncomputable section

namespace Cert.KernelIdeal.Combine

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
/-- The array window stages as `main_v128`: the corner image `main_v64` of the reference's program, channel-second. -/
theorem entry_main_v128 (c : Dev nD) : (atEntry m c main_v128 : S128x3x224x224.Idx → EReal)
    = transpose S128x3x224x224 [0, 3, 1, 2] (Cert.ReferenceIdeal.Read.val_main_v64 (F := Ideal) (m ((c : Thread nD τ).loc main_arg0)))
        transposes_S128x224x224x3_S128x3x224x224_0_3_1_2 := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 4000000 in
/-- The array window stages as `main_v129`: the corner image `main_v85` of the reference's program, channel-second. -/
theorem entry_main_v129 (c : Dev nD) : (atEntry m c main_v129 : S128x3x224x224.Idx → EReal)
    = transpose S128x3x224x224 [0, 3, 1, 2] (Cert.ReferenceIdeal.Read.val_main_v85 (F := Ideal) (m ((c : Thread nD τ).loc main_arg0)))
        transposes_S128x224x224x3_S128x3x224x224_0_3_1_2 := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.KernelIdeal.Combine

end
-- ==== Proof.EntryCornersB.lean ====
/-
  What the launch finds in the arrays its windows stage: the last two corner images (top-right, bottom-right).

  The host operations before the launch are, operation for operation, those of the reference's program: the
  floor and fractional part of the two coordinate channels, the four products of (1 − fraction) and fraction, the
  padded image, the clamped and wrapped integer corner coordinates, and the four gathers. So each array the
  launch finds is a value the reference's program also computes, of the same argument array — here re-laid for
  the kernel (corner images transposed to channel-second, weight planes given a unit channel axis). The shared
  operations are never opened: both sides are the same term.
-/
import proofs.«123371_j48232482734312_2_alg».proof.Proof.EntryIdeal
import proofs.«123371_j48232482734312_2_alg».proof.Proof.Gen.ReferenceIdeal.Read
import Idealize.ShloMosaic.Lib.StableHlo.Run
import Idealize.ShloMosaic.PureOps.Ideal

set_option maxRecDepth 16384

noncomputable section

namespace Cert.KernelIdeal.Combine

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
/-- The array window stages as `main_v130`: the corner image `main_v106` of the reference's program, channel-second. -/
theorem entry_main_v130 (c : Dev nD) : (atEntry m c main_v130 : S128x3x224x224.Idx → EReal)
    = transpose S128x3x224x224 [0, 3, 1, 2] (Cert.ReferenceIdeal.Read.val_main_v106 (F := Ideal) (m ((c : Thread nD τ).loc main_arg0)))
        transposes_S128x224x224x3_S128x3x224x224_0_3_1_2 := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 4000000 in
/-- The array window stages as `main_v131`: the corner image `main_v127` of the reference's program, channel-second. -/
theorem entry_main_v131 (c : Dev nD) : (atEntry m c main_v131 : S128x3x224x224.Idx → EReal)
    = transpose S128x3x224x224 [0, 3, 1, 2] (Cert.ReferenceIdeal.Read.val_main_v127 (F := Ideal) (m ((c : Thread nD τ).loc main_arg0)))
        transposes_S128x224x224x3_S128x3x224x224_0_3_1_2 := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.KernelIdeal.Combine

end
-- ==== Proof.EntryWeights.lean ====
/-
  What the launch finds in the arrays its windows stage: the four weight planes.

  The host operations before the launch are, operation for operation, those of the reference's program: the
  floor and fractional part of the two coordinate channels, the four products of (1 − fraction) and fraction, the
  padded image, the clamped and wrapped integer corner coordinates, and the four gathers. So each array the
  launch finds is a value the reference's program also computes, of the same argument array — here re-laid for
  the kernel (corner images transposed to channel-second, weight planes given a unit channel axis). The shared
  operations are never opened: both sides are the same term.
-/
import proofs.«123371_j48232482734312_2_alg».proof.Proof.EntryIdeal
import proofs.«123371_j48232482734312_2_alg».proof.Proof.Gen.ReferenceIdeal.Read
import Idealize.ShloMosaic.Lib.StableHlo.Run
import Idealize.ShloMosaic.PureOps.Ideal

set_option maxRecDepth 16384

noncomputable section

namespace Cert.KernelIdeal.Combine

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
/-- The array window stages as `main_v14`: the weight plane `main_v13` of the reference's program with a unit channel axis. -/
theorem entry_main_v14 (c : Dev nD) : (atEntry m c main_v14 : S128x1x224x224.Idx → EReal)
    = broadcastInDim S128x1x224x224 ![0, 2, 3] bcast_S128x224x224_S128x1x224x224_0_2_3
        (Cert.ReferenceIdeal.Read.val_main_v13 (F := Ideal) (m ((c : Thread nD τ).loc main_arg0))) := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 4000000 in
/-- The array window stages as `main_v18`: the weight plane `main_v17` of the reference's program with a unit channel axis. -/
theorem entry_main_v18 (c : Dev nD) : (atEntry m c main_v18 : S128x1x224x224.Idx → EReal)
    = broadcastInDim S128x1x224x224 ![0, 2, 3] bcast_S128x224x224_S128x1x224x224_0_2_3
        (Cert.ReferenceIdeal.Read.val_main_v17 (F := Ideal) (m ((c : Thread nD τ).loc main_arg0))) := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 4000000 in
/-- The array window stages as `main_v22`: the weight plane `main_v21` of the reference's program with a unit channel axis. -/
theorem entry_main_v22 (c : Dev nD) : (atEntry m c main_v22 : S128x1x224x224.Idx → EReal)
    = broadcastInDim S128x1x224x224 ![0, 2, 3] bcast_S128x224x224_S128x1x224x224_0_2_3
        (Cert.ReferenceIdeal.Read.val_main_v21 (F := Ideal) (m ((c : Thread nD τ).loc main_arg0))) := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 4000000 in
/-- The array window stages as `main_v24`: the weight plane `main_v23` of the reference's program with a unit channel axis. -/
theorem entry_main_v24 (c : Dev nD) : (atEntry m c main_v24 : S128x1x224x224.Idx → EReal)
    = broadcastInDim S128x1x224x224 ![0, 2, 3] bcast_S128x224x224_S128x1x224x224_0_2_3
        (Cert.ReferenceIdeal.Read.val_main_v23 (F := Ideal) (m ((c : Thread nD τ).loc main_arg0))) := by
  dsimp only [atEntry, atEntry₀, before]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.KernelIdeal.Combine

end
-- ==== Proof.Joined.lean ====
/-
  The kernel's program and the reference compute the same array.

  At image a, pixel (p, q), channel b the program's result is the kernel's result array at (a, b, p, q) — the
  closing transpose —, which is  Σₖ wₖ(a, 0, p, q) · cₖ(a, b, p, q)  over the four corners, added from the left;
  the arrays the launch found are the reference's corner images transposed and its weight planes with a unit
  channel axis, so this is  Σₖ weightₖ(a, p, q) · cornerₖ(a, p, q, b).  The reference spreads each weight plane over
  a last axis of three channels, multiplies by the corner image and adds from the left: the same four products
  in the same order. No law of arithmetic is used, only the layouts.
-/
import proofs.«123371_j48232482734312_2_alg».proof.Proof.ArrayIdeal
import proofs.«123371_j48232482734312_2_alg».proof.Proof.EntryCornersA
import proofs.«123371_j48232482734312_2_alg».proof.Proof.EntryCornersB
import proofs.«123371_j48232482734312_2_alg».proof.Proof.EntryWeights
import proofs.«123371_j48232482734312_2_alg».proof.Proof.Gen.ReferenceIdeal.Read

set_option maxRecDepth 16384

noncomputable section

namespace Cert.KernelIdeal.Combine

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The reference's result at an index: the four weighted corners, added from the left. -/
theorem reference_at (x : (⟨Cert.ReferenceIdeal.S128x224x224x5, .f32⟩ : BufTy).Contents (Elt Ideal)) (a : Fin 128) (p q : Fin 224) (b : Fin 3) :
    Cert.ReferenceIdeal.Read.val_main_v138 (F := Ideal) x (ix4 a p q b)
      = Cert.ReferenceIdeal.Read.val_main_v13 (F := Ideal) x (ix3 a p q) * Cert.ReferenceIdeal.Read.val_main_v64 (F := Ideal) x (ix4 a p q b)
        + Cert.ReferenceIdeal.Read.val_main_v17 (F := Ideal) x (ix3 a p q) * Cert.ReferenceIdeal.Read.val_main_v85 (F := Ideal) x (ix4 a p q b)
        + Cert.ReferenceIdeal.Read.val_main_v21 (F := Ideal) x (ix3 a p q) * Cert.ReferenceIdeal.Read.val_main_v106 (F := Ideal) x (ix4 a p q b)
        + Cert.ReferenceIdeal.Read.val_main_v23 (F := Ideal) x (ix3 a p q) * Cert.ReferenceIdeal.Read.val_main_v127 (F := Ideal) x (ix4 a p q b) := by
  have h1 : Cert.ReferenceIdeal.Read.idx_main_v14 (Cert.ReferenceIdeal.Read.idx_main_v128 (ix4 a p q b)) = ix3 a p q :=
    funext fun d => Fin.ext (by match d with | ⟨0, _⟩ => rfl | ⟨1, _⟩ => rfl | ⟨2, _⟩ => rfl)
  have h2 : Cert.ReferenceIdeal.Read.idx_main_v18 (Cert.ReferenceIdeal.Read.idx_main_v130 (ix4 a p q b)) = ix3 a p q :=
    funext fun d => Fin.ext (by match d with | ⟨0, _⟩ => rfl | ⟨1, _⟩ => rfl | ⟨2, _⟩ => rfl)
  have h3 : Cert.ReferenceIdeal.Read.idx_main_v22 (Cert.ReferenceIdeal.Read.idx_main_v133 (ix4 a p q b)) = ix3 a p q :=
    funext fun d => Fin.ext (by match d with | ⟨0, _⟩ => rfl | ⟨1, _⟩ => rfl | ⟨2, _⟩ => rfl)
  have h4 : Cert.ReferenceIdeal.Read.idx_main_v24 (Cert.ReferenceIdeal.Read.idx_main_v136 (ix4 a p q b)) = ix3 a p q :=
    funext fun d => Fin.ext (by match d with | ⟨0, _⟩ => rfl | ⟨1, _⟩ => rfl | ⟨2, _⟩ => rfl)
  rw [Cert.ReferenceIdeal.Read.val_main_v138_apply, Cert.ReferenceIdeal.Read.val_main_v135_apply, Cert.ReferenceIdeal.Read.val_main_v132_apply,
    Cert.ReferenceIdeal.Read.val_main_v129_apply, Cert.ReferenceIdeal.Read.val_main_v131_apply, Cert.ReferenceIdeal.Read.val_main_v134_apply,
    Cert.ReferenceIdeal.Read.val_main_v137_apply, Cert.ReferenceIdeal.Read.val_main_v128_apply, Cert.ReferenceIdeal.Read.val_main_v130_apply,
    Cert.ReferenceIdeal.Read.val_main_v133_apply, Cert.ReferenceIdeal.Read.val_main_v136_apply, Cert.ReferenceIdeal.Read.val_main_v14_apply,
    Cert.ReferenceIdeal.Read.val_main_v18_apply, Cert.ReferenceIdeal.Read.val_main_v22_apply, Cert.ReferenceIdeal.Read.val_main_v24_apply,
    h1, h2, h3, h4]
  rfl

/-- The program's result is the reference's result of the same argument array. -/
theorem result_is_reference (c : Dev nD) :
    transpose S128x224x224x3 [0, 2, 3, 1] (kernelArray m c) transposes_S128x3x224x224_S128x224x224x3_0_2_3_1
      = Cert.ReferenceIdeal.Read.val_main_v138 (F := Ideal) (m ((c : Thread nD τ).loc main_arg0)) := by
  funext i
  obtain ⟨a, p, q, b, rfl⟩ : ∃ (a : Fin 128) (p q : Fin 224) (b : Fin 3), i = ix4 a p q b := ⟨i 0, i 1, i 2, i 3, eq_ix4 i⟩
  rw [reference_at, Cert.Lib.toChannelLast_apply]
  unfold kernelArray
  rw [mix_apply]
  unfold mixAt
  rw [entry_main_v128, entry_main_v129, entry_main_v130, entry_main_v131, entry_main_v14, entry_main_v18, entry_main_v22, entry_main_v24,
    Cert.Lib.toChannelSecond_apply, Cert.Lib.toChannelSecond_apply, Cert.Lib.toChannelSecond_apply, Cert.Lib.toChannelSecond_apply,
    Cert.Lib.unitChannelSecond_apply, Cert.Lib.unitChannelSecond_apply, Cert.Lib.unitChannelSecond_apply, Cert.Lib.unitChannelSecond_apply]

/-- The program's run with its result named: the reference's function of the argument array. -/
theorem run_value : θ_run defs (onTc (τ := τ) (main (F := Ideal))) ⟨m, fun _ => 0, ρ⟩ fun r => ∀ c : Dev nD,
      r.2.mem ((c.tc : Thread nD τ).loc main_v133) = Cert.ReferenceIdeal.Read.val_main_v138 (F := Ideal) (m ((c : Thread nD τ).loc main_arg0))
      ∧ r.2.mem ((c.tc : Thread nD τ).loc main_arg0) = m ((c.tc : Thread nD τ).loc main_arg0) :=
  (θ_run defs _ _).mono (fun _ h c =>
    ⟨((h c).2 main_v133 (Pipeline.mem_restRefs_of main_v133 (by decide) (by decide))).trans ((result_eq m c).trans (result_is_reference m c)),
     ((h c).2 main_arg0 (Pipeline.mem_restRefs_of main_arg0 (by decide) (by decide))).trans (atExit_arg0 m (pieces m) c)⟩)
    (run_main m ρ)

end Cert.KernelIdeal.Combine

end
-- ==== Proof.lean ====
/-
  Bilinear sampling: a kernel that combines four gathered corner images with their bilinear weights, against the
  reference that does the same with plain array operations.

  Both programs compute, from the one argument array, the same four corner images (gathers from the padded image
  at clamped integer coordinates) and the same four weights (products of the coordinates' fractional parts and
  their complements). The kernel's program then lays them out channel-second, forms
  w₀·c₀ + w₁·c₁ + w₂·c₂ + w₃·c₃ block by block over the batch, and transposes back; the reference forms the
  same sum on channel-last arrays. On the extended reals the two results are equal entry by entry: the same
  four products, added in the same order — only the layouts differ, so no finiteness of the input is needed.

  The three programs' runs: the kernel's program at either instance by the launch of its one kernel over the 32
  grid points between its host operations; the reference by the composition of its host operations.
-/
import proofs.«123371_j48232482734312_2_alg».proof.Defs
import proofs.«123371_j48232482734312_2_alg».proof.Proof.Gen.Kernel
import proofs.«123371_j48232482734312_2_alg».proof.Proof.Gen.KernelIdeal
import proofs.«123371_j48232482734312_2_alg».proof.Proof.Gen.ReferenceIdeal
import proofs.«123371_j48232482734312_2_alg».proof.Proof.Gen.Pre_finite_inputs
import proofs.«123371_j48232482734312_2_alg».proof.Proof.Gen.ReferenceIdeal.Run
import proofs.«123371_j48232482734312_2_alg».proof.Proof.Gen.ReferenceIdeal.Read
import proofs.«123371_j48232482734312_2_alg».proof.Proof.FrameBits
import proofs.«123371_j48232482734312_2_alg».proof.Proof.Joined
import Idealize.ShloMosaic.Adequacy
import Idealize.ShloMosaic.Init

noncomputable section

namespace Cert.Proof

open Idealize.ShloMosaic Idealize.ShloMosaic.TcCoe Idealize.SL.Sem

/-- The kernel's program as printed runs to the end and keeps its argument. -/
theorem frame_kernel : Cert.frame_Kernel := fun m ρ _ => Cert.Kernel.Combine.frame m ρ

/-- So does its idealization. -/
theorem frame_kernel_ideal : Cert.frame_KernelIdeal := fun m ρ _ => Cert.KernelIdeal.Combine.frame m ρ

/-- The reference runs to the end and keeps its argument: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, both programs end with the reference's function of it. -/
theorem algebraic : Cert.algebraic_KernelIdeal_ReferenceIdeal := by
  intro m ρ m' ρ' _ hagree
  refine ⟨fun c => Cert.ReferenceIdeal.Read.val_main_v138 (F := Ideal) (m ((c.tc : Thread Cert.KernelIdeal.nD Cert.KernelIdeal.τ).loc Cert.KernelIdeal.main_arg0)),
    Cert.KernelIdeal.Combine.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
